-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg12 : FVec F S128x256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S256 .f32) (main_arg9 : FVec F S256 .f32) (main_arg10 : FVec F S256 .f32) (main_arg11 : FVec F S256 .f32) (main_arg12 : FVec F S128x256 .f32) (main_arg13 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256x256 .f32) (main_arg6 : FVec F S256x256 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S800000x256 : Shape := ⟨2, ![800000, 256]⟩

abbrev nBuf : Space → Nat
  | .hbm => 68
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S256, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x128, .f32⟩
  | .local _ .vmem, ⟨16, _⟩ => ⟨S2000x128, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S128x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S50000x256.size a
  hwx1_10 : ∀ i : grid1.Coords, EltTy.bits .f32 = 32 ∨ (Rect.block (s := S50000x256) S2000x256.size (cc1_transform_10 i) (hinb1_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S2000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S128x256, .f32⟩
  | 4 => ⟨S256, .f32⟩
  | 5 => ⟨S256x256, .f32⟩
  | 6 => ⟨S256x256, .f32⟩
  | 7 => ⟨S256, .f32⟩
  | 8 => ⟨S256, .f32⟩
  | 9 => ⟨S256, .f32⟩
  | 10 => ⟨S256, .f32⟩
  | 11 => ⟨S256, .f32⟩
  | 12 => ⟨S128x256, .f32⟩
  | 13 => ⟨S256, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S50000x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S50000x256, .f32⟩
  | 56 => ⟨S50000x256, .f32⟩
  | 57 => ⟨S50000x256, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x256, .f32⟩
  | 65 => ⟨S50000x256, .f32⟩
  | 66 => ⟨S_, .f32⟩
  | 67 => ⟨S50000x1, .f32⟩
  | 68 => ⟨S50000x1, .f32⟩
  | 69 => ⟨S50000x1, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S1x800000, .i32⟩
  | 82 => ⟨S800000, .i32⟩
  | 83 => ⟨S1x800000, .i32⟩
  | 84 => ⟨S800000, .i32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x256, .f32⟩
  | 94 => ⟨S_, .f32⟩
  | 95 => ⟨S50000x256, .f32⟩
  | 96 => ⟨S800000x1, .i32⟩
  | 97 => ⟨S50000x256, .f32⟩
  | 98 => ⟨S_, .f32⟩
  | 99 => ⟨S800000, .f32⟩
  | 100 => ⟨S_, .f32⟩
  | 101 => ⟨S50000, .f32⟩
  | 102 => ⟨S800000x1, .i32⟩
  | 103 => ⟨S50000, .f32⟩
  | 104 => ⟨S_, .f32⟩
  | 105 => ⟨S50000, .f32⟩
  | 106 => ⟨S50000, .f32⟩
  | 107 => ⟨S50000x1, .f32⟩
  | 108 => ⟨S50000x256, .f32⟩
  | 109 => ⟨S50000x256, .f32⟩
  | 110 => ⟨S50000x256, .f32⟩
  | 111 => ⟨S50000x256, .f32⟩
  | 112 => ⟨S50000x256, .f32⟩
  | 113 => ⟨S1x256, .f32⟩
  | 114 => ⟨S50000x256, .f32⟩
  | 115 => ⟨S50000x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S50000, .f32⟩
  | 123 => ⟨S50000x1, .f32⟩
  | 124 => ⟨S_, .f32⟩
  | 125 => ⟨S50000x1, .f32⟩
  | 126 => ⟨S50000x1, .f32⟩
  | 127 => ⟨S50000x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S50000x256, .f32⟩
  | 9 => ⟨S50000x256, .f32⟩
  | 10 => ⟨S_, .f32⟩
  | 11 => ⟨S50000x1, .f32⟩
  | 12 => ⟨S50000x1, .f32⟩
  | 13 => ⟨S50000x1, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call0_cst : Ref sig .tc := ⟨.hbm, 78, rfl⟩
abbrev main_call0_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_9 : Ref sig .tc := ⟨.hbm, 85, rfl⟩
abbrev main_v58 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_15 : Ref sig .tc := ⟨.hbm, 121, rfl⟩
abbrev main_v88 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_17 : Ref sig .tc := ⟨.hbm, 130, rfl⟩
abbrev main_v95 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_19 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_call1_cst : Ref sig .tc := ⟨.hbm, 150, rfl⟩
abbrev main_call1_v0 : Ref sig .tc := ⟨.hbm, 151, rfl⟩
abbrev main_v112 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The network's arithmetic, row by row, over the extended reals.

  A node's row of 256 features is normalised to mean 0 and variance 1: with `μ = (Σ_j c_j) / 256` and
  `σ² = (Σ_j (c_j − μ)²) / 256`, entry `q` of the result is `max (((c_q − μ) · (σ² + ε)^(−1/2)) · g_q + b_q) 0`, `ε` the
  single-precision word nearest to 1e-5. The constants 256, ε and 0 stay as their words: both programs carry the same
  words, so none is ever evaluated.

  The row that is normalised is, in the first layer, the node's neighbourhood mean `a` and its own features `x` each
  through a weight matrix, plus a bias: `Σ_k a_k·Wn_kq + Σ_k x_k·Wr_kq + b_q`; in the second layer the same of the first
  layer's output, plus a linear image of the node's input features with its own bias.
-/
import Idealize.ShloMosaic.PureOps.Ideal
import Idealize.ShloMosaic.Lib.ValueIdx

noncomputable section

open scoped BigOperators

namespace Cert.Bridge

open Idealize.ShloMosaic Idealize.ShloMosaic.ValueIdx

/-! ## One row -/

/-- The mean of a row of 256 entries. -/
def rowMean (c : Fin 256 → EReal) : EReal :=
  Ideal.div (∑ j, c j) (Ideal.ofBits .f32 0x43800000#32)

/-- The variance of a row: the mean of the squared deviations from the row's mean. -/
def rowVar (c : Fin 256 → EReal) : EReal :=
  Ideal.div (∑ j, (c j - rowMean c) * (c j - rowMean c)) (Ideal.ofBits .f32 0x43800000#32)

/-- Entry `q` of the row normalised to mean 0 and variance 1 (up to ε), scaled by `g`, shifted by `b`, clamped at 0. -/
def rowNorm (c g b : Fin 256 → EReal) (q : Fin 256) : EReal :=
  max ((c q - rowMean c) * Ideal.rsqrt (rowVar c + Ideal.ofBits .f32 0x3727C5AC#32) * g q + b q)
    (Ideal.ofBits .f32 0x00000000#32)

/-- Entry `q` of the first layer's row before normalisation. -/
def pre0 (a x : Fin 128 → EReal) (wn wr : Fin 128 → Fin 256 → EReal) (b : Fin 256 → EReal) (q : Fin 256) : EReal :=
  (∑ k, a k * wn k q) + (∑ k, x k * wr k q) + b q

/-- Entry `q` of the second layer's row before normalisation: the convolution of the first layer's output, plus the
    linear image of the input features. -/
def pre1 (a y : Fin 256 → EReal) (x : Fin 128 → EReal) (wn wr : Fin 256 → Fin 256 → EReal) (lw : Fin 128 → Fin 256 → EReal)
    (b lb : Fin 256 → EReal) (q : Fin 256) : EReal :=
  ((∑ k, a k * wn k q) + (∑ k, y k * wr k q) + b q) + ((∑ k, x k * lw k q) + lb q)

/-- The one row of a `[1, 256]` array. -/
abbrev theRow (g : (⟨2, ![1, 256]⟩ : Shape).Idx → EReal) : Fin 256 → EReal := fun j => g (ix2 (0 : Fin 1) j)

/-! ## All 50000 nodes -/

/-- A `[256]` vector as a function of its one coordinate. -/
abbrev vec256 (v : (⟨1, ![256]⟩ : Shape).Idx → EReal) : Fin 256 → EReal := fun q => v (ix1 q)

/-- The first layer: node `i 0`'s row, normalised; entry `i 1`. The bias, gain and shift are rows of 256 entries. -/
def layer0 (a x : (⟨2, ![50000, 128]⟩ : Shape).Idx → EReal) (wn wr : (⟨2, ![128, 256]⟩ : Shape).Idx → EReal)
    (b g be : Fin 256 → EReal) : (⟨2, ![50000, 256]⟩ : Shape).Idx → EReal := fun i =>
  rowNorm (pre0 (fun k => a (ix2 (i 0) k)) (fun k => x (ix2 (i 0) k)) (fun k q => wn (ix2 k q)) (fun k q => wr (ix2 k q)) b)
    g be (i 1)

/-- The second layer. -/
def layer1 (a y : (⟨2, ![50000, 256]⟩ : Shape).Idx → EReal) (x : (⟨2, ![50000, 128]⟩ : Shape).Idx → EReal)
    (wn wr : (⟨2, ![256, 256]⟩ : Shape).Idx → EReal) (lw : (⟨2, ![128, 256]⟩ : Shape).Idx → EReal)
    (b lb g be : Fin 256 → EReal) : (⟨2, ![50000, 256]⟩ : Shape).Idx → EReal := fun i =>
  rowNorm (pre1 (fun k => a (ix2 (i 0) k)) (fun k => y (ix2 (i 0) k)) (fun k => x (ix2 (i 0) k)) (fun k q => wn (ix2 k q))
      (fun k q => wr (ix2 k q)) (fun k q => lw (ix2 k q)) b lb)
    g be (i 1)

end Cert.Bridge

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Reductions along the rows of a matrix, read at one row, over the extended reals.

  For an `[a, n]` matrix `Y` reduced over its second axis to an `[a]` vector, entry `p` of the result depends on row
  `p` only:
  * a vector maximum reduction from the accumulator pattern `acc` is the fold of `max` from `acc`'s value over
    `Y (p, 0), …, Y (p, n − 1)`;
  * a vector sum reduction from the zero accumulator is `Σ_j Y (p, j)`;
  * the host's reduce with a maximum body from the initial value `init` is the same fold from `init`.
  The point put back into the reduced index `p` at coordinate `k` of the reduced axis is `(p, k)`.
-/
import Idealize.ShloMosaic.PureOps.Ideal.Laws
import Idealize.ShloMosaic.Lib.ValueIdx

noncomputable section

open scoped BigOperators

namespace Cert.Lib

open Idealize.ShloMosaic Idealize.ShloMosaic.ValueIdx

/-- The reduced index `p` with coordinate `k` of the second axis put back is `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A vector maximum reduction along the rows, at row `p`: the fold of `max` from the accumulator's value over the row. -/
theorem laneMax_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) Y acc h hφ hacc (ix1 p)
      = (Finset.univ : Finset (Fin n)).fold max (Ideal.ofBits .f32 acc) (fun j => Y (ix2 p j)) := by
  rw [Ideal.multiReduction_maximumf_single]
  have hf : (Y ∘ h.lift (ix1 p)) = fun k : Fin n => Y (ix2 p k) := funext fun k => congrArg Y (lift_row h p k)
  exact congrArg (fun f => Finset.fold max (Ideal.ofBits .f32 acc) f (Finset.univ : Finset (Fin n))) hf

/-- A vector sum reduction along the rows, at row `p`: the sum of the row. -/
theorem laneSum_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (p : Fin a) :
    multiReduction .add [1] (⟨1, ![a]⟩ : Shape) Y acc h hφ hacc (ix1 p) = ∑ j : Fin n, Y (ix2 p j) := by
  rw [Ideal.multiReduction_add_single]
  exact Finset.sum_congr rfl fun k _ => congrArg Y (lift_row h p k)

/-- The host's reduce with a maximum body along the rows, at row `p`: the fold of `max` from the initial value over the row. -/
theorem hostMax_apply {a n : ℕ} (Y : FVec Ideal ⟨2, ![a, n]⟩ .f32) (init : (⟨0, ![]⟩ : Shape).Idx → Ideal .f32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf Y init h' hu (ix1 p)
      = (Finset.univ : Finset (Fin n)).fold max (init (Shape.Idx.first hu)) (fun j => Y (ix2 p j)) := by
  rw [Host.reduce_eq_fold_single FloatOps.maximumf Y _ h' h hu]
  have hf : (Y ∘ h.lift (ix1 p)) = fun k : Fin n => Y (ix2 p k) := funext fun k => congrArg Y (lift_row h p k)
  exact congrArg (fun f => Finset.fold max (init (Shape.Idx.first hu)) f (Finset.univ : Finset (Fin n))) hf

end Cert.Lib

end
-- ==== Proof.NormTail.lean ====
/-
  Layer normalisation carried out on a block of 2000 rows of 256 features.

  The row sums are lane reductions kept as `[2000, 1]` columns and spread back along the rows, and the gain `g` and
  the shift `b` are `[1, 256]` rows spread over the 2000 rows; entry `(p, q)` of the result depends on row `p` of the
  block only, and is the row function `rowNorm` of that row (`normTail_apply`).
-/
import proofs.«101314_j47064251630165_1_alg».proof.Proof.Gen.KernelIdeal
import proofs.«101314_j47064251630165_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«101314_j47064251630165_1_alg».proof.Proof.LibColumn
import proofs.«101314_j47064251630165_1_alg».proof.Proof.LibRowReduce

noncomputable section

open scoped BigOperators

namespace Cert.Bridge

open Idealize.ShloMosaic Idealize.ShloMosaic.ValueIdx Cert.KernelIdeal
open Cert.KernelIdeal.Facts₀

/-! ## A block of 2000 rows -/

/-- The column of the block's row means. -/
def meanCol (c : FVec Ideal S2000x256 .f32) : FVec Ideal S2000x1 .f32 :=
  divf (shapeCast S2000x1 (multiReduction .add [1] S2000 c 0x00000000#32 reduces_S2000x256_S2000 (.inl rfl) rfl) shapeCasts_S2000_S2000x1)
    (broadcast S2000x1 (Scalar.ofBits (F := Ideal) .f32 0x43800000#32))

/-- The block with each row's mean taken off. -/
def devs (c : FVec Ideal S2000x256 .f32) : FVec Ideal S2000x256 .f32 :=
  subf c (broadcastTo S2000x256 (meanCol c) broadcasts_S2000x1_S2000x256)

/-- The column of the rows' sums of squared deviations. -/
def sqSumCol (c : FVec Ideal S2000x256 .f32) : FVec Ideal S2000x1 .f32 :=
  shapeCast S2000x1 (multiReduction .add [1] S2000 (mulf (devs c) (devs c)) 0x00000000#32 reduces_S2000x256_S2000 (.inl rfl) rfl) shapeCasts_S2000_S2000x1

/-- The block normalised row by row, scaled by the row `g`, shifted by the row `b`, clamped at 0. -/
def normTail (c : FVec Ideal S2000x256 .f32) (g b : Vec Ideal S1x256 .f32) : FVec Ideal S2000x256 .f32 :=
  maximumf
    (addf
      (mulf
        (mulf (devs c)
          (broadcastTo S2000x256
            (rsqrt (addf (divf (sqSumCol c) (broadcast S2000x1 (Scalar.ofBits (F := Ideal) .f32 0x43800000#32)))
              (broadcast S2000x1 (Scalar.ofBits (F := Ideal) .f32 0x3727C5AC#32))))
            broadcasts_S2000x1_S2000x256))
        (broadcastTo S2000x256 (shapeCast S1x256 g shapeCasts_S1x256_S1x256) broadcasts_S1x256_S2000x256))
      (broadcastTo S2000x256 (shapeCast S1x256 b shapeCasts_S1x256_S1x256) broadcasts_S1x256_S2000x256))
    (broadcast S2000x256 (Scalar.ofBits (F := Ideal) .f32 0x00000000#32))

/-- Row `p` of a block, as a function of the column. -/
abbrev rowOf (c : FVec Ideal S2000x256 .f32) (p : Fin 2000) : Fin 256 → EReal := fun j => c (ix2 p j)

/-- The reciprocal square root of a column, entry by entry. -/
theorem rsqrt_apply {s : Shape} {φ : FTy} (x : FVec Ideal s φ) (i : s.Idx) : rsqrt x i = Ideal.rsqrt (x i) := rfl

/-- A lane sum from the zero word along the rows of a block, at row `p`: the sum of the row. -/
theorem rowSum_apply (Y : FVec Ideal S2000x256 .f32) (hacc : (0x00000000#32 : BitVec 32) = 0x00000000#32) (p : Fin 2000) :
    multiReduction .add [1] S2000 Y 0x00000000#32 reduces_S2000x256_S2000 (.inl rfl) hacc (ix1 p) = ∑ j : Fin 256, Y (ix2 p j) :=
  Cert.Lib.laneSum_apply Y 0x00000000#32 reduces_S2000x256_S2000 (.inl rfl) hacc p

/-- Entry `p` of the mean column is the mean of row `p`. -/
theorem meanCol_apply (c : FVec Ideal S2000x256 .f32) (p : Fin 2000) (u : Fin 1) :
    meanCol c (ix2 p u) = rowMean (rowOf c p) := by
  unfold meanCol rowMean
  rw [divf_apply, Cert.Lib.shapeCast_a_a1_apply, broadcast_apply]
  exact congrArg (fun s => Ideal.div s (Ideal.ofBits .f32 0x43800000#32)) (rowSum_apply c rfl p)

/-- Entry `(p, q)` of the deviations is the entry less the mean of its row. -/
theorem devs_apply (c : FVec Ideal S2000x256 .f32) (p : Fin 2000) (q : Fin 256) :
    devs c (ix2 p q) = c (ix2 p q) - rowMean (rowOf c p) := by
  unfold devs
  rw [subf_apply, Cert.Lib.broadcastTo_a1_ab_apply, meanCol_apply]

/-- Entry `p` of the squared-deviation column is the sum over row `p`. -/
theorem sqSumCol_apply (c : FVec Ideal S2000x256 .f32) (p : Fin 2000) (u : Fin 1) :
    sqSumCol c (ix2 p u) = ∑ j, (rowOf c p j - rowMean (rowOf c p)) * (rowOf c p j - rowMean (rowOf c p)) := by
  unfold sqSumCol
  rw [Cert.Lib.shapeCast_a_a1_apply]
  refine (rowSum_apply (mulf (devs c) (devs c)) rfl p).trans ?_
  refine Finset.sum_congr rfl fun j _ => ?_
  rw [mulf_apply, devs_apply]

/-- ENTRY `(p, q)` OF THE NORMALISED BLOCK is the row function of row `p`, of `g`'s row and of `b`'s row. -/
theorem normTail_apply (c : FVec Ideal S2000x256 .f32) (g b : Vec Ideal S1x256 .f32) (p : Fin 2000) (q : Fin 256) :
    normTail c g b (ix2 p q) = rowNorm (rowOf c p) (theRow g) (theRow b) q := by
  unfold normTail rowNorm rowVar
  rw [maximumf_apply, addf_apply, mulf_apply, mulf_apply, devs_apply, Cert.Lib.broadcastTo_a1_ab_apply, rsqrt_apply,
    addf_apply, divf_apply, sqSumCol_apply, broadcast_apply, broadcast_apply, broadcast_apply,
    broadcastTo_1b_ab_apply, broadcastTo_1b_ab_apply, shapeCast_self, shapeCast_self]
  rfl

end Cert.Bridge

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Totals.lean ====
/-
  The rows that are normalised, computed on a block of 2000 nodes.

  First layer: the block of neighbourhood means times one weight matrix, plus the block of features times another,
  plus the bias row spread over the 2000 rows. Second layer: the same of the first layer's output (256 features), plus
  the features times the linear map's matrix plus its bias row. The operands are narrowed to a 16-bit format on the way
  into each product, which over the extended reals changes nothing; each product accumulates into zero, so its entry
  `(p, q)` is the plain sum `Σ_k l (p, k) · r (k, q)`. Entry `(p, q)` of a block is therefore the row function
  (`pre0`, `pre1`) of row `p` of each row-blocked operand.
-/
import proofs.«101314_j47064251630165_1_alg».proof.Proof.Gen.KernelIdeal
import proofs.«101314_j47064251630165_1_alg».proof.Proof.Spec
import proofs.«101314_j47064251630165_1_alg».proof.Proof.LibMatmulPlain
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge

open Idealize.ShloMosaic Idealize.ShloMosaic.ValueIdx Cert.KernelIdeal
open Cert.KernelIdeal.Facts₀

/-- The 2000 × 128 by 128 × 256 product's dimension numbers are the plain ones. -/
theorem dot128_plain : dot_S2000x128_S128x256_S2000x256_1_0_0_1_n_n = DotDims.plain 2000 128 256 := rfl

/-- The 2000 × 256 by 256 × 256 product's dimension numbers are the plain ones. -/
theorem dot256_plain : dot_S2000x256_S256x256_S2000x256_1_0_0_1_n_n = DotDims.plain 2000 256 256 := rfl

/-- Entry `(p, q)` of a narrowed 2000 × 128 by 128 × 256 product into zero. -/
theorem prod128_apply (l : FVec Ideal S2000x128 .f32) (r : FVec Ideal S128x256 .f32) (p : Fin 2000) (q : Fin 256) :
    matmul dot_S2000x128_S128x256_S2000x256_1_0_0_1_n_n none (truncf .bf16 l bitsLt_bf16_f32) (truncf .bf16 r bitsLt_bf16_f32)
        (constant S2000x256 .f32 0x00000000#32) (ix2 p q)
      = ∑ k : Fin 128, l (ix2 p k) * r (ix2 k q) := by
  rw [dot128_plain]
  refine (Cert.Lib.matmul_plain_zero_apply 2000 128 256 none _ _ p q).trans ?_
  rfl

/-- Entry `(p, q)` of a narrowed 2000 × 256 by 256 × 256 product into zero. -/
theorem prod256_apply (l : FVec Ideal S2000x256 .f32) (r : FVec Ideal S256x256 .f32) (p : Fin 2000) (q : Fin 256) :
    matmul dot_S2000x256_S256x256_S2000x256_1_0_0_1_n_n none (truncf .bf16 l bitsLt_bf16_f32) (truncf .bf16 r bitsLt_bf16_f32)
        (constant S2000x256 .f32 0x00000000#32) (ix2 p q)
      = ∑ k : Fin 256, l (ix2 p k) * r (ix2 k q) := by
  rw [dot256_plain]
  refine (Cert.Lib.matmul_plain_zero_apply 2000 256 256 none _ _ p q).trans ?_
  rfl

/-- The first layer's block before normalisation. -/
def total0 (A X : Vec Ideal S2000x128 .f32) (Wn Wr : Vec Ideal S128x256 .f32) (b : Vec Ideal S1x256 .f32) : FVec Ideal S2000x256 .f32 :=
  addf
    (addf
      (matmul dot_S2000x128_S128x256_S2000x256_1_0_0_1_n_n none (truncf .bf16 (shapeCast S2000x128 A shapeCasts_S2000x128_S2000x128) bitsLt_bf16_f32) (truncf .bf16 Wn bitsLt_bf16_f32) (constant S2000x256 .f32 0x00000000#32))
      (matmul dot_S2000x128_S128x256_S2000x256_1_0_0_1_n_n none (truncf .bf16 X bitsLt_bf16_f32) (truncf .bf16 Wr bitsLt_bf16_f32) (constant S2000x256 .f32 0x00000000#32)))
    (broadcastTo S2000x256 (shapeCast S1x256 b shapeCasts_S1x256_S1x256) broadcasts_S1x256_S2000x256)

/-- Entry `(p, q)` of the first layer's block is the row function of row `p` of the means and of the features. -/
theorem total0_apply (A X : Vec Ideal S2000x128 .f32) (Wn Wr : Vec Ideal S128x256 .f32) (b : Vec Ideal S1x256 .f32)
    (p : Fin 2000) (q : Fin 256) :
    total0 A X Wn Wr b (ix2 p q)
      = pre0 (fun k => A (ix2 p k)) (fun k => X (ix2 p k)) (fun k q => Wn (ix2 k q)) (fun k q => Wr (ix2 k q)) (theRow b) q := by
  unfold total0 pre0
  rw [addf_apply, addf_apply, prod128_apply, prod128_apply, broadcastTo_1b_ab_apply]
  simp only [shapeCast_self]

/-- The second layer's block before normalisation. -/
def total1 (A Y : Vec Ideal S2000x256 .f32) (X : Vec Ideal S2000x128 .f32) (Wn Wr : Vec Ideal S256x256 .f32) (Lw : Vec Ideal S128x256 .f32)
    (b lb : Vec Ideal S1x256 .f32) : FVec Ideal S2000x256 .f32 :=
  addf
    (addf
      (addf
        (matmul dot_S2000x256_S256x256_S2000x256_1_0_0_1_n_n none (truncf .bf16 (shapeCast S2000x256 A shapeCasts_S2000x256_S2000x256) bitsLt_bf16_f32) (truncf .bf16 Wn bitsLt_bf16_f32) (constant S2000x256 .f32 0x00000000#32))
        (matmul dot_S2000x256_S256x256_S2000x256_1_0_0_1_n_n none (truncf .bf16 (shapeCast S2000x256 Y shapeCasts_S2000x256_S2000x256) bitsLt_bf16_f32) (truncf .bf16 Wr bitsLt_bf16_f32) (constant S2000x256 .f32 0x00000000#32)))
      (broadcastTo S2000x256 (shapeCast S1x256 b shapeCasts_S1x256_S1x256) broadcasts_S1x256_S2000x256))
    (addf
      (matmul dot_S2000x128_S128x256_S2000x256_1_0_0_1_n_n none (truncf .bf16 X bitsLt_bf16_f32) (truncf .bf16 Lw bitsLt_bf16_f32) (constant S2000x256 .f32 0x00000000#32))
      (broadcastTo S2000x256 (shapeCast S1x256 lb shapeCasts_S1x256_S1x256) broadcasts_S1x256_S2000x256))

/-- Entry `(p, q)` of the second layer's block is the row function of row `p` of its three row-blocked operands. -/
theorem total1_apply (A Y : Vec Ideal S2000x256 .f32) (X : Vec Ideal S2000x128 .f32) (Wn Wr : Vec Ideal S256x256 .f32) (Lw : Vec Ideal S128x256 .f32)
    (b lb : Vec Ideal S1x256 .f32) (p : Fin 2000) (q : Fin 256) :
    total1 A Y X Wn Wr Lw b lb (ix2 p q)
      = pre1 (fun k => A (ix2 p k)) (fun k => Y (ix2 p k)) (fun k => X (ix2 p k)) (fun k q => Wn (ix2 k q)) (fun k q => Wr (ix2 k q))
          (fun k q => Lw (ix2 k q)) (theRow b) (theRow lb) q := by
  unfold total1 pre1
  rw [addf_apply, addf_apply, addf_apply, addf_apply, prod256_apply, prod256_apply, prod128_apply,
    broadcastTo_1b_ab_apply, broadcastTo_1b_ab_apply]
  simp only [shapeCast_self]

end Cert.Bridge

end
-- ==== Proof.Payload.lean ====
/-
  What each kernel body stores, read at an entry.

  A body loads its input blocks whole, computes, and stores one 2000 × 256 block whole; so the block it leaves is the
  computed value itself. That value is the normalisation of the layer's pre-normalisation block by the gain and shift
  rows (the printed sequence of vector operations is literally that composition), hence entry `(p, q)` of the stored
  block is the row function of row `p` of each row-blocked input and of the weight matrices and bias rows.
-/
import proofs.«101314_j47064251630165_1_alg».proof.Proof.Gen.KernelIdeal.Frame
import proofs.«101314_j47064251630165_1_alg».proof.Proof.NormTail
import proofs.«101314_j47064251630165_1_alg».proof.Proof.Totals

noncomputable section

open scoped BigOperators

namespace Cert.Bridge

open Idealize.ShloMosaic Idealize.ShloMosaic.ValueIdx Cert.KernelIdeal Cert.KernelIdeal.Gen
open Cert.KernelIdeal.Facts₀

/-- The row function at equal rows, gains, shifts and entries. -/
theorem rowNorm_congr {c c' g g' b b' : Fin 256 → EReal} {q q' : Fin 256} (hc : c = c') (hg : g = g') (hb : b = b') (hq : q = q') :
    rowNorm c g b q = rowNorm c' g' b' q' := by subst hc hg hb hq; rfl

/-- The first layer's row at equal operands. -/
theorem pre0_congr {a a' x x' : Fin 128 → EReal} {wn wn' wr wr' : Fin 128 → Fin 256 → EReal} {b b' : Fin 256 → EReal}
    (ha : a = a') (hx : x = x') (hwn : wn = wn') (hwr : wr = wr') (hb : b = b') : pre0 a x wn wr b = pre0 a' x' wn' wr' b' := by
  subst ha hx hwn hwr hb; rfl

/-- The second layer's row at equal operands. -/
theorem pre1_congr {a a' y y' : Fin 256 → EReal} {x x' : Fin 128 → EReal} {wn wn' wr wr' : Fin 256 → Fin 256 → EReal}
    {lw lw' : Fin 128 → Fin 256 → EReal} {b b' lb lb' : Fin 256 → EReal}
    (ha : a = a') (hy : y = y') (hx : x = x') (hwn : wn = wn') (hwr : wr = wr') (hlw : lw = lw') (hb : b = b') (hlb : lb = lb') :
    pre1 a y x wn wr lw b lb = pre1 a' y' x' wn' wr' lw' b' lb' := by
  subst ha hy hx hwn hwr hlw hb hlb; rfl

/-- The origin of a rank-2 rectangle. -/
theorem origin2 : (![0, 0] : Fin 2 → Nat) = fun _ => 0 := funext fun a => by fin_cases a <;> rfl

/-- The first body's stored value is the normalisation of its pre-normalisation block. -/
theorem pay0_eq (v0 v3 : Vec Ideal S2000x128 .f32) (v5 v7 : Vec Ideal S128x256 .f32) (v12 v34 v38 : Vec Ideal S1x256 .f32) :
    k0_pay1 (F := Ideal) (k0_pay2 v0 v3 v5 v7 v12 v34) v38 = normTail (total0 v0 v3 v5 v7 v12) v34 v38 := rfl

/-- The second body's stored value is the normalisation of its pre-normalisation block. -/
theorem pay1_eq (v0 v3 : Vec Ideal S2000x256 .f32) (v6 : Vec Ideal S2000x128 .f32) (v8 v10 : Vec Ideal S256x256 .f32) (v12 : Vec Ideal S128x256 .f32)
    (v17 v22 v45 v49 : Vec Ideal S1x256 .f32) :
    k1_pay1 (F := Ideal) (k1_pay2 v0 v3 v6 v8 v10 v12 v17 v22) (k1_pay3 v0 v3 v6 v8 v10 v12 v17 v22) (k1_pay4 v0 v3 v6 v8 v10 v12 v17 v22)
        (Scalar.ofBits .f32 0x43800000#32) v45 v49
      = normTail (total1 v0 v3 v6 v8 v10 v12 v17 v22) v45 v49 := rfl

/-- ENTRY `(p, q)` OF THE FIRST BODY'S BLOCK: the normalised first-layer row of node `p` of the block. -/
theorem out0_7_apply (x0 x1 : Vec Ideal S2000x128 .f32) (x2 x3 : Vec Ideal S128x256 .f32) (x4 x5 x6 : Vec Ideal S1x256 .f32)
    (p : Fin 2000) (q : Fin 256) :
    out0_7 (F := Ideal) x0 x1 x2 x3 x4 x5 x6 (ix2 p q)
      = rowNorm (pre0 (fun k => x0 (ix2 p k)) (fun k => x1 (ix2 p k)) (fun k q => x2 (ix2 k q)) (fun k q => x3 (ix2 k q)) (theRow x4))
          (theRow x5) (theRow x6) q := by
  unfold out0_7
  rw [View.canon_unit_zero origin2]
  simp only [View.ld_unit_zero (S := S2000x128) origin2, View.ld_unit_zero (S := S128x256) origin2, View.ld_unit_zero (S := S1x256) origin2]
  rw [pay0_eq, normTail_apply]
  exact congrArg (fun c => rowNorm c (theRow x5) (theRow x6) q) (funext fun j => total0_apply x0 x1 x2 x3 x4 p j)

/-- ENTRY `(p, q)` OF THE SECOND BODY'S BLOCK: the normalised second-layer row of node `p` of the block. -/
theorem out1_10_apply (x0 x1 : Vec Ideal S2000x256 .f32) (x2 : Vec Ideal S2000x128 .f32) (x3 x4 : Vec Ideal S256x256 .f32) (x5 : Vec Ideal S1x256 .f32)
    (x6 : Vec Ideal S128x256 .f32) (x7 x8 x9 : Vec Ideal S1x256 .f32) (p : Fin 2000) (q : Fin 256) :
    out1_10 (F := Ideal) x0 x1 x2 x3 x4 x5 x6 x7 x8 x9 (ix2 p q)
      = rowNorm (pre1 (fun k => x0 (ix2 p k)) (fun k => x1 (ix2 p k)) (fun k => x2 (ix2 p k)) (fun k q => x3 (ix2 k q)) (fun k q => x4 (ix2 k q))
            (fun k q => x6 (ix2 k q)) (theRow x5) (theRow x7))
          (theRow x8) (theRow x9) q := by
  unfold out1_10
  rw [View.canon_unit_zero origin2]
  simp only [View.ld_unit_zero (S := S2000x256) origin2, View.ld_unit_zero (S := S2000x128) origin2, View.ld_unit_zero (S := S256x256) origin2,
    View.ld_unit_zero (S := S128x256) origin2, View.ld_unit_zero (S := S1x256) origin2]
  rw [pay1_eq, normTail_apply]
  exact congrArg (fun c => rowNorm c (theRow x8) (theRow x9) q) (funext fun j => total1_apply x0 x1 x2 x3 x4 x6 x5 x7 p j)

end Cert.Bridge

end
-- ==== Proof.Region0.lean ====
/-
  The first region: from the blocks its 25 grid points write back to the whole 50000 × 256 array.

  Grid point `t` is handed rows `2000·t … 2000·t + 1999` of the neighbourhood means and of the features, the two
  weight matrices and the three `[1, 256]` rows whole, and writes back rows `2000·t … 2000·t + 1999` of the output.
  The block it writes is, entry by entry, the normalised first-layer row of the node the entry belongs to — a function
  of the arrays as the region finds them, the same for every point — and the 25 blocks tile the array. So the array
  ends holding that function (`final0`), whatever the arrays' contents (`V`).
-/
import proofs.«101314_j47064251630165_1_alg».proof.Proof.Gen.KernelIdeal.Frame
import proofs.«101314_j47064251630165_1_alg».proof.Proof.Payload
import Idealize.ShloMosaic.Lib.Pipeline.Value

set_option maxRecDepth 16384

noncomputable section

namespace Cert.Bridge

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The first layer's output as a function of the arrays the region finds. -/
def G0 (c : Dev nD) : S50000x256.Idx → Elt Ideal .f32 :=
  layer0 (V c main_v22) (V c main_arg0) (V c main_arg2) (V c main_arg3) (theRow (V c main_v23)) (theRow (V c main_v24)) (theRow (V c main_v25))

/-- The block indices, decided over the grid: the two row-blocked inputs move with the output block, every other
    window sits at block (0, 0), and the output's block row is at most 24. -/
theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 24 :=
  (by decide +kernel : ∀ t : Fin grid0.N, _)

/-- Every block row of the output is some point's. -/
theorem idx_onto0 : ∀ q0 : Fin 25, ∃ t : Fin cfg0.N, win0_7.index t = ![q0.val, 0] :=
  (by decide +kernel : ∀ q0 : Fin 25, ∃ t : Fin grid0.N, win0_7.index t = ![q0.val, 0])

/-- WHAT POINT `t` WRITES BACK is block `t` of `G0`. -/
theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  obtain ⟨e00, e01, e10, e11, e20, e21, e30, e31, e40, e41, e50, e51, e60, e61, e71, e70⟩ := idx_facts0 t
  funext j
  obtain ⟨p, q, rfl⟩ : ∃ (p : Fin 2000) (q : Fin 256), j = ix2 p q := ⟨j 0, j 1, eq_ix2 j⟩
  show out0_7 (F := Ideal) (iblk0 V c 0 t) (iblk0 V c 1 t) (iblk0 V c 2 t) (iblk0 V c 3 t) (iblk0 V c 4 t) (iblk0 V c 5 t) (iblk0 V c 6 t) (ix2 p q)
      = G0 V c (((cfg0.win 7).blk t).view.emb (ix2 p q))
  refine (out0_7_apply (iblk0 V c 0 t) (iblk0 V c 1 t) (iblk0 V c 2 t) (iblk0 V c 3 t) (iblk0 V c 4 t) (iblk0 V c 5 t) (iblk0 V c 6 t) p q).trans ?_
  unfold G0 layer0
  refine rowNorm_congr (pre0_congr ?_ ?_ ?_ ?_ ?_) ?_ ?_ ?_
  · -- the means' block row p is row 2000·t + p of the array
    funext k
    show V c main_v22 (((cfg0.win 0).blk t).view.emb (ix2 p k)) = _
    refine congrArg (V c main_v22) (funext fun a => Fin.ext ?_)
    match a with
    | ⟨0, _⟩ => show win0_0.index t (0 : Fin 2) * 2000 + 1 * p.val = win0_7.index t (0 : Fin 2) * 2000 + 1 * p.val; omega
    | ⟨1, _⟩ => show win0_0.index t (1 : Fin 2) * 128 + 1 * k.val = k.val; omega
  · funext k
    show V c main_arg0 (((cfg0.win 1).blk t).view.emb (ix2 p k)) = _
    refine congrArg (V c main_arg0) (funext fun a => Fin.ext ?_)
    match a with
    | ⟨0, _⟩ => show win0_1.index t (0 : Fin 2) * 2000 + 1 * p.val = win0_7.index t (0 : Fin 2) * 2000 + 1 * p.val; omega
    | ⟨1, _⟩ => show win0_1.index t (1 : Fin 2) * 128 + 1 * k.val = k.val; omega
  · -- a weight matrix is handed over whole
    funext k q'
    show V c main_arg2 (((cfg0.win 2).blk t).view.emb (ix2 k q')) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 256 + 1 * q'.val = q'.val; omega
  · funext k q'
    show V c main_arg3 (((cfg0.win 3).blk t).view.emb (ix2 k q')) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 256 + 1 * q'.val = q'.val; omega
  · -- so is each row
    funext k
    show V c main_v23 (((cfg0.win 4).blk t).view.emb (ix2 (0 : Fin 1) k)) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 256 + 1 * k.val = k.val; omega
  · funext k
    show V c main_v24 (((cfg0.win 5).blk t).view.emb (ix2 (0 : Fin 1) k)) = _
    refine congrArg (V c main_v24) (funext fun a => Fin.ext ?_)
    match a with
    | ⟨0, _⟩ => show win0_5.index t (0 : Fin 2) * 1 + 1 * 0 = 0; omega
    | ⟨1, _⟩ => show win0_5.index t (1 : Fin 2) * 256 + 1 * k.val = k.val; omega
  · funext k
    show V c main_v25 (((cfg0.win 6).blk t).view.emb (ix2 (0 : Fin 1) k)) = _
    refine congrArg (V c main_v25) (funext fun a => Fin.ext ?_)
    match a with
    | ⟨0, _⟩ => show win0_6.index t (0 : Fin 2) * 1 + 1 * 0 = 0; omega
    | ⟨1, _⟩ => show win0_6.index t (1 : Fin 2) * 256 + 1 * k.val = k.val; omega
  · -- the output block spans all 256 columns
    refine Fin.ext ?_
    show q.val = win0_7.index t (1 : Fin 2) * 256 + 1 * q.val
    omega

/-- An index of the array is in point `t`'s block iff each coordinate is in the block's range on its axis. -/
theorem mem_blk0 (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v26).slice (win0_7.rect t)).set ↔ _
  rw [View.set_slice_whole, Rect.mem_set_unit]
  exact Iff.rfl

/-- The 25 blocks tile the array: row `r` is in block `r / 2000`. -/
theorem cover0 (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  obtain ⟨t, ht⟩ := idx_onto0 ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk0]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 256 ≤ (i 1).val ∧ (i 1).val < win0_7.index t (1 : Fin 2) * 256 + 256; omega

/-- THE ARRAY AFTER THE REGION: the first layer of the arrays it found. -/
theorem final0 (c : Dev nD) : (dat0 V c).arrAt 7 cfg0.N = G0 V c :=
  (dat0 V c).arrAt_eq_of_cover 7 (G0 V c) (fun t _ => flushed0_eq V c t) (cover0)

end Cert.Bridge

end
-- ==== Proof.Region1.lean ====
/-
  The second region: from the blocks its 25 grid points write back to the whole 50000 × 256 array.

  Grid point `t` is handed rows `2000·t … 2000·t + 1999` of the first layer's neighbourhood means, of the first layer's
  output and of the input features, the three weight matrices and the four `[1, 256]` rows whole, and writes back rows
  `2000·t … 2000·t + 1999` of the output. The block it writes is, entry by entry, the normalised second-layer row of the
  node the entry belongs to, and the 25 blocks tile the array; so the array ends holding that function of the arrays
  the region found (`final1`), whatever their contents (`V`).
-/
import proofs.«101314_j47064251630165_1_alg».proof.Proof.Gen.KernelIdeal.Frame
import proofs.«101314_j47064251630165_1_alg».proof.Proof.Payload
import Idealize.ShloMosaic.Lib.Pipeline.Value

set_option maxRecDepth 16384

noncomputable section

namespace Cert.Bridge

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The second layer's output as a function of the arrays the region finds. -/
def G1 (c : Dev nD) : S50000x256.Idx → Elt Ideal .f32 :=
  layer1 (V c main_v39) (V c main_v26) (V c main_arg0) (V c main_arg5) (V c main_arg6) (V c main_arg12)
    (theRow (V c main_v40)) (theRow (V c main_v41)) (theRow (V c main_v42)) (theRow (V c main_v43))

/-- The block indices, decided over the grid: the three row-blocked inputs move with the output block, every other
    window sits at block (0, 0), and the output's block row is at most 24. -/
theorem idx_facts1 : ∀ t : Fin cfg1.N,
    win1_0.index t (0 : Fin 2) = win1_10.index t (0 : Fin 2) ∧ win1_0.index t (1 : Fin 2) = 0
    ∧ win1_1.index t (0 : Fin 2) = win1_10.index t (0 : Fin 2) ∧ win1_1.index t (1 : Fin 2) = 0
    ∧ win1_2.index t (0 : Fin 2) = win1_10.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (1 : Fin 2) = 0 ∧ win1_10.index t (0 : Fin 2) ≤ 24 :=
  (by decide +kernel : ∀ t : Fin grid1.N, _)

/-- Every block row of the output is some point's. -/
theorem idx_onto1 : ∀ q0 : Fin 25, ∃ t : Fin cfg1.N, win1_10.index t = ![q0.val, 0] :=
  (by decide +kernel : ∀ q0 : Fin 25, ∃ t : Fin grid1.N, win1_10.index t = ![q0.val, 0])

/-- WHAT POINT `t` WRITES BACK is block `t` of `G1`. -/
theorem flushed1_eq (c : Dev nD) (t : Fin cfg1.N) :
    (dat1 V c).flushed 10 t = ((cfg1.win 10).blk t).view.read (Elt Ideal) (G1 V c) := by
  show (cfg1.win 10).cut (grid1.coords t) ((dat1 V c).after 10 t) = _
  rw [after1_10]
  obtain ⟨e00, e01, e10, e11, e20, e21, e30, e31, e40, e41, e50, e51, e60, e61, e70, e71, e80, e81, e90, e91, eo1, eo0⟩ := idx_facts1 t
  funext j
  obtain ⟨p, q, rfl⟩ : ∃ (p : Fin 2000) (q : Fin 256), j = ix2 p q := ⟨j 0, j 1, eq_ix2 j⟩
  show out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p q)
      = G1 V c (((cfg1.win 10).blk t).view.emb (ix2 p q))
  refine (out1_10_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q).trans ?_
  unfold G1 layer1
  refine rowNorm_congr (pre1_congr ?_ ?_ ?_ ?_ ?_ ?_ ?_ ?_) ?_ ?_ ?_
  · -- the means' block row p is row 2000·t + p of the array
    funext k
    show V c main_v39 (((cfg1.win 0).blk t).view.emb (ix2 p k)) = _
    refine congrArg (V c main_v39) (funext fun a => Fin.ext ?_)
    match a with
    | ⟨0, _⟩ => show win1_0.index t (0 : Fin 2) * 2000 + 1 * p.val = win1_10.index t (0 : Fin 2) * 2000 + 1 * p.val; omega
    | ⟨1, _⟩ => show win1_0.index t (1 : Fin 2) * 256 + 1 * k.val = k.val; omega
  · funext k
    show V c main_v26 (((cfg1.win 1).blk t).view.emb (ix2 p k)) = _
    refine congrArg (V c main_v26) (funext fun a => Fin.ext ?_)
    match a with
    | ⟨0, _⟩ => show win1_1.index t (0 : Fin 2) * 2000 + 1 * p.val = win1_10.index t (0 : Fin 2) * 2000 + 1 * p.val; omega
    | ⟨1, _⟩ => show win1_1.index t (1 : Fin 2) * 256 + 1 * k.val = k.val; omega
  · funext k
    show V c main_arg0 (((cfg1.win 2).blk t).view.emb (ix2 p k)) = _
    refine congrArg (V c main_arg0) (funext fun a => Fin.ext ?_)
    match a with
    | ⟨0, _⟩ => show win1_2.index t (0 : Fin 2) * 2000 + 1 * p.val = win1_10.index t (0 : Fin 2) * 2000 + 1 * p.val; omega
    | ⟨1, _⟩ => show win1_2.index t (1 : Fin 2) * 128 + 1 * k.val = k.val; omega
  · -- a weight matrix is handed over whole
    funext k q'
    show V c main_arg5 (((cfg1.win 3).blk t).view.emb (ix2 k q')) = _
    refine congrArg (V c main_arg5) (funext fun a => Fin.ext ?_)
    match a with
    | ⟨0, _⟩ => show win1_3.index t (0 : Fin 2) * 256 + 1 * k.val = k.val; omega
    | ⟨1, _⟩ => show win1_3.index t (1 : Fin 2) * 256 + 1 * q'.val = q'.val; omega
  · funext k q'
    show V c main_arg6 (((cfg1.win 4).blk t).view.emb (ix2 k q')) = _
    refine congrArg (V c main_arg6) (funext fun a => Fin.ext ?_)
    match a with
    | ⟨0, _⟩ => show win1_4.index t (0 : Fin 2) * 256 + 1 * k.val = k.val; omega
    | ⟨1, _⟩ => show win1_4.index t (1 : Fin 2) * 256 + 1 * q'.val = q'.val; omega
  · funext k q'
    show V c main_arg12 (((cfg1.win 6).blk t).view.emb (ix2 k q')) = _
    refine congrArg (V c main_arg12) (funext fun a => Fin.ext ?_)
    match a with
    | ⟨0, _⟩ => show win1_6.index t (0 : Fin 2) * 128 + 1 * k.val = k.val; omega
    | ⟨1, _⟩ => show win1_6.index t (1 : Fin 2) * 256 + 1 * q'.val = q'.val; omega
  · -- so is each row
    funext k
    show V c main_v40 (((cfg1.win 5).blk t).view.emb (ix2 (0 : Fin 1) k)) = _
    refine congrArg (V c main_v40) (funext fun a => Fin.ext ?_)
    match a with
    | ⟨0, _⟩ => show win1_5.index t (0 : Fin 2) * 1 + 1 * 0 = 0; omega
    | ⟨1, _⟩ => show win1_5.index t (1 : Fin 2) * 256 + 1 * k.val = k.val; omega
  · funext k
    show V c main_v41 (((cfg1.win 7).blk t).view.emb (ix2 (0 : Fin 1) k)) = _
    refine congrArg (V c main_v41) (funext fun a => Fin.ext ?_)
    match a with
    | ⟨0, _⟩ => show win1_7.index t (0 : Fin 2) * 1 + 1 * 0 = 0; omega
    | ⟨1, _⟩ => show win1_7.index t (1 : Fin 2) * 256 + 1 * k.val = k.val; omega
  · funext k
    show V c main_v42 (((cfg1.win 8).blk t).view.emb (ix2 (0 : Fin 1) k)) = _
    refine congrArg (V c main_v42) (funext fun a => Fin.ext ?_)
    match a with
    | ⟨0, _⟩ => show win1_8.index t (0 : Fin 2) * 1 + 1 * 0 = 0; omega
    | ⟨1, _⟩ => show win1_8.index t (1 : Fin 2) * 256 + 1 * k.val = k.val; omega
  · funext k
    show V c main_v43 (((cfg1.win 9).blk t).view.emb (ix2 (0 : Fin 1) k)) = _
    refine congrArg (V c main_v43) (funext fun a => Fin.ext ?_)
    match a with
    | ⟨0, _⟩ => show win1_9.index t (0 : Fin 2) * 1 + 1 * 0 = 0; omega
    | ⟨1, _⟩ => show win1_9.index t (1 : Fin 2) * 256 + 1 * k.val = k.val; omega
  · -- the output block spans all 256 columns
    refine Fin.ext ?_
    show q.val = win1_10.index t (1 : Fin 2) * 256 + 1 * q.val
    omega

/-- An index of the array is in point `t`'s block iff each coordinate is in the block's range on its axis. -/
theorem mem_blk1 (t : Fin cfg1.N) (i : S50000x256.Idx) :
    i ∈ ((cfg1.win 10).blk t).view.set ↔ ∀ a : Fin 2, win1_10.index t a * S2000x256.size a ≤ (i a).val ∧ (i a).val < win1_10.index t a * S2000x256.size a + S2000x256.size a := by
  show i ∈ ((View.whole main_v44).slice (win1_10.rect t)).set ↔ _
  rw [View.set_slice_whole, Rect.mem_set_unit]
  exact Iff.rfl

/-- The 25 blocks tile the array: row `r` is in block `r / 2000`. -/
theorem cover1 (i : S50000x256.Idx) : ∃ t : Fin cfg1.N, (cfg1.win 10).flush t = true ∧ i ∈ ((cfg1.win 10).blk t).view.set := by
  have hi0 : (i 0).val < 50000 := (i 0).isLt
  have hi1 : (i 1).val < 256 := (i 1).isLt
  obtain ⟨t, ht⟩ := idx_onto1 ⟨(i 0).val / 2000, by omega⟩
  have q0 : win1_10.index t (0 : Fin 2) = (i 0).val / 2000 := congrFun ht 0
  have q1 : win1_10.index t (1 : Fin 2) = 0 := congrFun ht 1
  refine ⟨t, flush1_10 t, ?_⟩
  rw [mem_blk1]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 256 ≤ (i 1).val ∧ (i 1).val < win1_10.index t (1 : Fin 2) * 256 + 256; omega

/-- THE ARRAY AFTER THE REGION: the second layer of the arrays it found. -/
theorem final1 (c : Dev nD) : (dat1 V c).arrAt 10 cfg1.N = G1 V c :=
  (dat1 V c).arrAt_eq_of_cover 10 (G1 V c) (fun t _ => flushed1_eq V c t) (cover1)

end Cert.Bridge

end
-- ==== Proof.Agg.lean ====
/-
  The neighbourhood mean, as ONE function of a feature array and the edge list.

  An edge list holds a source row and a destination row of 800000 node numbers. Each edge carries its source node's
  feature row (a negative source number counted from the end) to its destination node, where the rows are summed; the
  sum is divided by the number of edges arriving at the node, taken as at least 1. Nothing here looks inside that
  computation: it is named so that two programs applying it to equal arrays visibly produce equal arrays.
-/
import proofs.«101314_j47064251630165_1_alg».proof.Proof.Gen.KernelIdeal

noncomputable section

namespace Cert.Bridge

open Idealize.ShloMosaic Cert.KernelIdeal
open Cert.KernelIdeal.Facts₀

variable {F : FTy → Type} [FloatOps F]

/-- Each edge's destination node, as a column. -/
def dstCol (e : (⟨S2x800000, .i32⟩ : BufTy).Contents (Elt F)) : (⟨S800000x1, .i32⟩ : BufTy).Contents (Elt F) :=
  broadcastInDim S800000x1 ![0] bcast_S800000_S800000x1_0 (shapeCast _ (extractStridedSlice S1x800000 ![1, 0] e slices_S2x800000_S1x800000_1_0) shapeCasts_S1x800000_S800000)

/-- Each edge's source node, a negative number counted from the end, as a column. -/
def srcCol (e : (⟨S2x800000, .i32⟩ : BufTy).Contents (Elt F)) : (⟨S800000x1, .i32⟩ : BufTy).Contents (Elt F) :=
  broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))

/-- The number of edges arriving at each node, at least 1. -/
def degClamped (e : (⟨S2x800000, .i32⟩ : BufTy).Contents (Elt F)) : (⟨S50000, .f32⟩ : BufTy).Contents (Elt F) :=
  maximumf (Host.scatterAdd scatter_S50000_S800000x1_S800000_n_0_0_1 (broadcastInDim S50000 ![] bcast_S_S50000 (constant S_ .f32 0x00000000#32)) (dstCol (F := F) e) (broadcastInDim S800000 ![] bcast_S_S800000 (constant S_ .f32 0x3F800000#32))) (broadcastInDim S50000 ![] bcast_S_S50000 (constant S_ .f32 0x3F800000#32))

/-- The neighbourhood mean of 128-feature rows. -/
def agg128 (x : (⟨S50000x128, .f32⟩ : BufTy).Contents (Elt F)) (e : (⟨S2x800000, .i32⟩ : BufTy).Contents (Elt F)) :
    (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (dstCol (F := F) e) (Host.gather gather_S50000x128_S800000x1_S800000x128_1_0_n_n_0_1_1128 x (srcCol (F := F) e))) (broadcastInDim S50000x128 ![0, 1] bcast_S50000x1_S50000x128_0_1 (broadcastInDim S50000x1 ![0] bcast_S50000_S50000x1_0 (degClamped (F := F) e)))

/-- The neighbourhood mean of 256-feature rows. -/
def agg256 (y : (⟨S50000x256, .f32⟩ : BufTy).Contents (Elt F)) (e : (⟨S2x800000, .i32⟩ : BufTy).Contents (Elt F)) :
    (⟨S50000x256, .f32⟩ : BufTy).Contents (Elt F) :=
  Host.divf (Host.scatterAdd scatter_S50000x256_S800000x1_S800000x256_1_0_0_1 (broadcastInDim S50000x256 ![] bcast_S_S50000x256 (constant S_ .f32 0x00000000#32)) (dstCol (F := F) e) (Host.gather gather_S50000x256_S800000x1_S800000x256_1_0_n_n_0_1_1256 y (srcCol (F := F) e))) (broadcastInDim S50000x256 ![0, 1] bcast_S50000x1_S50000x256_0_1 (broadcastInDim S50000x1 ![0] bcast_S50000_S50000x1_0 (degClamped (F := F) e)))

end Cert.Bridge

end
-- ==== Proof.Stretch0.lean ====
/-
  What the first region finds in each of its arrays, as a term of the launch memory.

  Before the first region the program computes, on the host: the edge list's two rows, the clamped in-degree, the
  neighbourhood mean of the input features, and the three `[256]` vectors (bias, gain, shift) viewed as `[1, 256]`
  rows. No argument array is written. So at the region's entry the means' buffer holds the aggregation of the launch
  features and edge list, each row buffer holds its vector reshaped, and every argument buffer holds what it held at
  launch. The edge list's rows and the clamped degree are read again after the region, so they are stated too.
-/
import proofs.«101314_j47064251630165_1_alg».proof.Proof.Gen.KernelIdeal.Frame
import proofs.«101314_j47064251630165_1_alg».proof.Proof.Agg
import proofs.«101314_j47064251630165_1_alg».proof.Proof.Spec
import Idealize.ShloMosaic.Lib.StableHlo.Run
import Idealize.ShloMosaic.Lib.ValueLayout

set_option maxRecDepth 16384

noncomputable section

namespace Cert.Bridge

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A `[256]` vector viewed as a `[1, 256]` row has the vector's entries in its one row. -/
theorem theRow_reshape (v : (⟨S256, .f32⟩ : BufTy).Contents (Elt Ideal)) :
    theRow (shapeCast S1x256 v shapeCasts_S256_S1x256) = vec256 v :=
  funext fun q => shapeCast_a_1a_apply v shapeCasts_S256_S1x256 (0 : Fin 1) q

/-! ## The computed buffers -/

/-- The means' buffer holds the neighbourhood mean of the launch features over the launch edge list. -/
theorem W1_v22 (c : Dev nD) :
    W1 m ρ c (Proc.devRef .tc main_v22)
      = agg128 (F := Ideal) (m ((c : Thread nD τ).loc main_arg0)) (m ((c : Thread nD τ).loc main_arg1)) := by
  show StableHlo.after hostOps0 (W0 m ρ c) (Proc.devRef .tc main_v22) = _
  dsimp only [hostOps0]
  after_results_simp <;> rfl

/-- The first layer's bias row. -/
theorem W1_v23 (c : Dev nD) :
    W1 m ρ c (Proc.devRef .tc main_v23) = shapeCast S1x256 (m ((c : Thread nD τ).loc main_arg4)) shapeCasts_S256_S1x256 := by
  show StableHlo.after hostOps0 (W0 m ρ c) (Proc.devRef .tc main_v23) = _
  dsimp only [hostOps0]
  after_results <;> rfl

/-- The first normalisation's gain row. -/
theorem W1_v24 (c : Dev nD) :
    W1 m ρ c (Proc.devRef .tc main_v24) = shapeCast S1x256 (m ((c : Thread nD τ).loc main_arg8)) shapeCasts_S256_S1x256 := by
  show StableHlo.after hostOps0 (W0 m ρ c) (Proc.devRef .tc main_v24) = _
  dsimp only [hostOps0]
  after_results <;> rfl

/-- The first normalisation's shift row. -/
theorem W1_v25 (c : Dev nD) :
    W1 m ρ c (Proc.devRef .tc main_v25) = shapeCast S1x256 (m ((c : Thread nD τ).loc main_arg9)) shapeCasts_S256_S1x256 := by
  show StableHlo.after hostOps0 (W0 m ρ c) (Proc.devRef .tc main_v25) = _
  dsimp only [hostOps0]
  after_results <;> rfl

/-- The edge list's source row. -/
theorem W1_v1 (c : Dev nD) :
    W1 m ρ c (Proc.devRef .tc main_v1)
      = shapeCast _ (extractStridedSlice S1x800000 ![0, 0] (m ((c : Thread nD τ).loc main_arg1)) slices_S2x800000_S1x800000_0_0) shapeCasts_S1x800000_S800000 := by
  show StableHlo.after hostOps0 (W0 m ρ c) (Proc.devRef .tc main_v1) = _
  dsimp only [hostOps0]
  after_results <;> rfl

/-- The edge list's destination row. -/
theorem W1_v3 (c : Dev nD) :
    W1 m ρ c (Proc.devRef .tc main_v3)
      = shapeCast _ (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  dsimp only [hostOps0]
  after_results <;> rfl

/-- The in-degree, at least 1. -/
theorem W1_v9 (c : Dev nD) :
    W1 m ρ c (Proc.devRef .tc main_v9) = degClamped (F := Ideal) (m ((c : Thread nD τ).loc main_arg1)) := by
  show StableHlo.after hostOps0 (W0 m ρ c) (Proc.devRef .tc main_v9) = _
  dsimp only [hostOps0]
  after_results <;> rfl

/-! ## The argument buffers: nothing before the region writes one -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results <;> rfl

theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results <;> rfl

theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results <;> rfl

theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results <;> rfl

theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results <;> rfl

theorem W1_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results <;> rfl

theorem W1_arg11 (c : Dev nD) : W1 m ρ c (Proc.devRef .tc main_arg11) = m ((c : Thread nD τ).loc main_arg11) := by
  show StableHlo.after hostOps0 (W0 m ρ c) (Proc.devRef .tc main_arg11) = _
  dsimp only [hostOps0]
  after_results <;> rfl

theorem W1_arg13 (c : Dev nD) : W1 m ρ c (Proc.devRef .tc main_arg13) = m ((c : Thread nD τ).loc main_arg13) := by
  show StableHlo.after hostOps0 (W0 m ρ c) (Proc.devRef .tc main_arg13) = _
  dsimp only [hostOps0]
  after_results <;> rfl

end Cert.Bridge

end
-- ==== Proof.Stretch1.lean ====
/-
  What the second region finds in each of its arrays, as a term of what the first region left.

  Between the regions the program computes, on the host, the neighbourhood mean of the first region's output — from the
  edge list's rows and the clamped in-degree computed before the first region, which that region does not touch — and
  the four `[256]` vectors of the second layer viewed as `[1, 256]` rows. It writes no argument array and not the
  first region's output. So the second means' buffer holds the aggregation of whatever the first region left in its
  output array, over the launch edge list.
-/
import proofs.«101314_j47064251630165_1_alg».proof.Proof.Stretch0

set_option maxRecDepth 16384

noncomputable section

namespace Cert.Bridge

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Buffers the first region leaves alone -/

theorem W2_v1 (c : Dev nD) :
    W2 m ρ c (Proc.devRef .tc main_v1)
      = shapeCast _ (extractStridedSlice S1x800000 ![0, 0] (m ((c : Thread nD τ).loc main_arg1)) slices_S2x800000_S1x800000_0_0) shapeCasts_S1x800000_S800000 :=
  (W2_of_ne m ρ c main_v1 (by decide)).trans (W1_v1 m ρ c)

theorem W2_v3 (c : Dev nD) :
    W2 m ρ c (Proc.devRef .tc main_v3)
      = shapeCast _ (extractStridedSlice S1x800000 ![1, 0] (m ((c : Thread nD τ).loc main_arg1)) slices_S2x800000_S1x800000_1_0) shapeCasts_S1x800000_S800000 :=
  (W2_of_ne m ρ c main_v3 (by decide)).trans (W1_v3 m ρ c)

theorem W2_v9 (c : Dev nD) :
    W2 m ρ c (Proc.devRef .tc main_v9) = degClamped (F := Ideal) (m ((c : Thread nD τ).loc main_arg1)) :=
  (W2_of_ne m ρ c main_v9 (by decide)).trans (W1_v9 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg13 (c : Dev nD) : W2 m ρ c (Proc.devRef .tc main_arg13) = m ((c : Thread nD τ).loc main_arg13) :=
  (W2_of_ne m ρ c main_arg13 (by decide)).trans (W1_arg13 m ρ c)

/-! ## The buffers computed between the regions -/

/-- The second means' buffer holds the neighbourhood mean of the first region's output over the launch edge list. -/
theorem W3_v39 (c : Dev nD) :
    W3 m ρ c (Proc.devRef .tc main_v39)
      = agg256 (F := Ideal) (W2 m ρ c (Proc.devRef .tc main_v26)) (m ((c : Thread nD τ).loc main_arg1)) := by
  show StableHlo.after hostOps1 (W2 m ρ c) (Proc.devRef .tc main_v39) = _
  dsimp only [hostOps1]
  after_results_simp
  rw [W2_v1, W2_v3, W2_v9]
  rfl

/-- The first region's output is still in its buffer. -/
theorem W3_v26 (c : Dev nD) : W3 m ρ c (Proc.devRef .tc main_v26) = W2 m ρ c (Proc.devRef .tc main_v26) := by
  show StableHlo.after hostOps1 (W2 m ρ c) (Proc.devRef .tc main_v26) = _
  dsimp only [hostOps1]
  after_results

/-- The second layer's bias row. -/
theorem W3_v40 (c : Dev nD) :
    W3 m ρ c (Proc.devRef .tc main_v40) = shapeCast S1x256 (m ((c : Thread nD τ).loc main_arg7)) shapeCasts_S256_S1x256 := by
  show StableHlo.after hostOps1 (W2 m ρ c) (Proc.devRef .tc main_v40) = _
  dsimp only [hostOps1]
  after_results
  rw [W2_arg7]
  rfl

/-- The linear map's bias row. -/
theorem W3_v41 (c : Dev nD) :
    W3 m ρ c (Proc.devRef .tc main_v41) = shapeCast S1x256 (m ((c : Thread nD τ).loc main_arg13)) shapeCasts_S256_S1x256 := by
  show StableHlo.after hostOps1 (W2 m ρ c) (Proc.devRef .tc main_v41) = _
  dsimp only [hostOps1]
  after_results
  rw [W2_arg13]
  rfl

/-- The second normalisation's gain row. -/
theorem W3_v42 (c : Dev nD) :
    W3 m ρ c (Proc.devRef .tc main_v42) = shapeCast S1x256 (m ((c : Thread nD τ).loc main_arg10)) shapeCasts_S256_S1x256 := by
  show StableHlo.after hostOps1 (W2 m ρ c) (Proc.devRef .tc main_v42) = _
  dsimp only [hostOps1]
  after_results
  rw [W2_arg10]
  rfl

/-- The second normalisation's shift row. -/
theorem W3_v43 (c : Dev nD) :
    W3 m ρ c (Proc.devRef .tc main_v43) = shapeCast S1x256 (m ((c : Thread nD τ).loc main_arg11)) shapeCasts_S256_S1x256 := by
  show StableHlo.after hostOps1 (W2 m ρ c) (Proc.devRef .tc main_v43) = _
  dsimp only [hostOps1]
  after_results
  rw [W2_arg11]
  rfl

end Cert.Bridge

end
-- ==== Proof.Net.lean ====
/-
  The whole network as ONE function of the fourteen argument arrays (in the programs' argument order: the node
  features, the edge list, the first layer's two weight matrices and bias, the second layer's two weight matrices and
  bias, the two normalisations' gains and shifts, the linear map's matrix and bias): the first layer of the
  neighbourhood means and the features; the second layer of the first's neighbourhood means, of the first's output and
  of the features.
-/
import proofs.«101314_j47064251630165_1_alg».proof.Proof.Spec
import proofs.«101314_j47064251630165_1_alg».proof.Proof.Agg

noncomputable section

namespace Cert.Bridge

open Idealize.ShloMosaic Cert.KernelIdeal

/-- The first layer's output. -/
def hidden (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 x8 x9 : (⟨S256, .f32⟩ : BufTy).Contents (Elt Ideal)) :
    (⟨S50000x256, .f32⟩ : BufTy).Contents (Elt Ideal) :=
  layer0 (agg128 (F := Ideal) x0 x1) x0 x2 x3 (vec256 x4) (vec256 x8) (vec256 x9)

/-- The network's output. -/
def net (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 x8 x9 x10 x11 : (⟨S256, .f32⟩ : BufTy).Contents (Elt Ideal))
    (x12 : (⟨S128x256, .f32⟩ : BufTy).Contents (Elt Ideal)) (x13 : (⟨S256, .f32⟩ : BufTy).Contents (Elt Ideal)) :
    (⟨S50000x256, .f32⟩ : BufTy).Contents (Elt Ideal) :=
  layer1 (agg256 (F := Ideal) (hidden x0 x1 x2 x3 x4 x8 x9) x1) (hidden x0 x1 x2 x3 x4 x8 x9) x0 x5 x6 x12
    (vec256 x7) (vec256 x13) (vec256 x10) (vec256 x11)

end Cert.Bridge

end
-- ==== Proof.KernelValue.lean ====
/-
  The result array after both regions, as the network of the fourteen launch arrays.

  The first region leaves the first layer of what it found; it found the neighbourhood mean of the launch features, the
  launch features and weights, and the bias, gain and shift rows. The second region leaves the second layer of what it
  found; it found the neighbourhood mean of the first region's output, that output, the launch features and weights,
  and its four rows. Substituting the one into the other gives the network as one function of the launch arrays.
-/
import proofs.«101314_j47064251630165_1_alg».proof.Proof.Region0
import proofs.«101314_j47064251630165_1_alg».proof.Proof.Region1
import proofs.«101314_j47064251630165_1_alg».proof.Proof.Stretch1
import proofs.«101314_j47064251630165_1_alg».proof.Proof.Net

set_option maxRecDepth 16384

noncomputable section

namespace Cert.Bridge

open Idealize.ShloMosaic Idealize.ShloMosaic.ValueIdx Idealize.ShloMosaic.TcCoe Idealize.SL.Sem Idealize.ShloMosaic.StableHlo
open Cert.KernelIdeal Cert.KernelIdeal.Gen

/-- The first layer at equal operands. -/
theorem layer0_congr {a a' x x' : (⟨2, ![50000, 128]⟩ : Shape).Idx → EReal} {wn wn' wr wr' : (⟨2, ![128, 256]⟩ : Shape).Idx → EReal}
    {b b' g g' be be' : Fin 256 → EReal} (ha : a = a') (hx : x = x') (hwn : wn = wn') (hwr : wr = wr') (hb : b = b') (hg : g = g')
    (hbe : be = be') : layer0 a x wn wr b g be = layer0 a' x' wn' wr' b' g' be' := by
  subst ha hx hwn hwr hb hg hbe; rfl

/-- The second layer at equal operands. -/
theorem layer1_congr {a a' y y' : (⟨2, ![50000, 256]⟩ : Shape).Idx → EReal} {x x' : (⟨2, ![50000, 128]⟩ : Shape).Idx → EReal}
    {wn wn' wr wr' : (⟨2, ![256, 256]⟩ : Shape).Idx → EReal} {lw lw' : (⟨2, ![128, 256]⟩ : Shape).Idx → EReal}
    {b b' lb lb' g g' be be' : Fin 256 → EReal} (ha : a = a') (hy : y = y') (hx : x = x') (hwn : wn = wn') (hwr : wr = wr')
    (hlw : lw = lw') (hb : b = b') (hlb : lb = lb') (hg : g = g') (hbe : be = be') :
    layer1 a y x wn wr lw b lb g be = layer1 a' y' x' wn' wr' lw' b' lb' g' be' := by
  subst ha hy hx hwn hwr hlw hb hlb hg hbe; rfl

variable (m : (ℓ : Loc nD τ sig) → Buf (Elt Ideal) ℓ) (ρ : Dev nD → PrngReg)

/-- WHAT THE FIRST REGION LEAVES in its output array: the first layer of the launch arrays. -/
theorem W2_v26 (c : Dev nD) :
    W2 m ρ c (Proc.devRef .tc main_v26)
      = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  refine (W2_arr m ρ c 7).trans ((final0 (V1 m ρ) c).trans ?_)
  unfold G0 hidden
  exact layer0_congr (W1_v22 m ρ c) (W1_arg0 m ρ c) (W1_arg2 m ρ c) (W1_arg3 m ρ c)
    ((congrArg theRow (W1_v23 m ρ c)).trans (theRow_reshape _))
    ((congrArg theRow (W1_v24 m ρ c)).trans (theRow_reshape _))
    ((congrArg theRow (W1_v25 m ρ c)).trans (theRow_reshape _))

/-! ## The argument arrays the second region reads through its windows: an input window's array is not written -/

theorem W3_arg0 (c : Dev nD) : W3 m ρ c (Proc.devRef .tc main_arg0) = m ((c : Thread nD τ).loc main_arg0) :=
  ((W4_arr m ρ c 2).trans (((dat1 (V3 m ρ) c).arrAt_in 2 rfl _).trans (A_eq1 (V3 m ρ) c 2))).symm.trans (W4_main_arg0 m ρ c)

theorem W3_arg5 (c : Dev nD) : W3 m ρ c (Proc.devRef .tc main_arg5) = m ((c : Thread nD τ).loc main_arg5) :=
  ((W4_arr m ρ c 3).trans (((dat1 (V3 m ρ) c).arrAt_in 3 rfl _).trans (A_eq1 (V3 m ρ) c 3))).symm.trans (W4_main_arg5 m ρ c)

theorem W3_arg6 (c : Dev nD) : W3 m ρ c (Proc.devRef .tc main_arg6) = m ((c : Thread nD τ).loc main_arg6) :=
  ((W4_arr m ρ c 4).trans (((dat1 (V3 m ρ) c).arrAt_in 4 rfl _).trans (A_eq1 (V3 m ρ) c 4))).symm.trans (W4_main_arg6 m ρ c)

theorem W3_arg12 (c : Dev nD) : W3 m ρ c (Proc.devRef .tc main_arg12) = m ((c : Thread nD τ).loc main_arg12) :=
  ((W4_arr m ρ c 6).trans (((dat1 (V3 m ρ) c).arrAt_in 6 rfl _).trans (A_eq1 (V3 m ρ) c 6))).symm.trans (W4_main_arg12 m ρ c)

/-- WHAT THE SECOND REGION LEAVES in the result array: the network of the launch arrays. -/
theorem W4_v44 (c : Dev nD) :
    W4 m ρ c (Proc.devRef .tc main_v44)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 10).trans ((final1 (V3 m ρ) c).trans ?_)
  unfold G1 net
  exact layer1_congr
    ((W3_v39 m ρ c).trans (congrArg (fun y => agg256 (F := Ideal) y (m ((c : Thread nD τ).loc main_arg1))) (W2_v26 m ρ c)))
    ((W3_v26 m ρ c).trans (W2_v26 m ρ c))
    (W3_arg0 m ρ c) (W3_arg5 m ρ c) (W3_arg6 m ρ c) (W3_arg12 m ρ c)
    ((congrArg theRow (W3_v40 m ρ c)).trans (theRow_reshape _))
    ((congrArg theRow (W3_v41 m ρ c)).trans (theRow_reshape _))
    ((congrArg theRow (W3_v42 m ρ c)).trans (theRow_reshape _))
    ((congrArg theRow (W3_v43 m ρ c)).trans (theRow_reshape _))

end Cert.Bridge

end
-- ==== Proof.KernelRun.lean ====
/-
  The kernel program's run, with its result named.

  The program is two stretches of host operations and two regions, in turn. Run from any memory with zero counters,
  every weakly fair execution terminates without a fault, and in the final state every buffer that outlives the
  regions holds what the fold through the four segments leaves there: the argument arrays what they held at launch, the
  result array the network of the launch arrays.
-/
import proofs.«101314_j47064251630165_1_alg».proof.Proof.Gen.KernelIdeal.Frame
import proofs.«101314_j47064251630165_1_alg».proof.Proof.KernelValue

set_option maxRecDepth 16384

noncomputable section

namespace Cert.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN: the result array ends at the network of the launch arrays, the arguments unchanged. -/
theorem kernel_run : θ_run defs (onTc (τ := τ) (main (F := Ideal))) ⟨m, fun _ => 0, ρ⟩ (fun r => ∀ c : Dev nD,
      r.2.mem ((c.tc : Thread nD τ).loc main_v44) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v44 (by decide))).trans (W4_v44 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.Bridge

end
-- ==== Proof.RefPre.lean ====
/-
  The reference program, stage by stage, in the specification's words.

  The neighbourhood means are not read at an index: the reference applies the same gather, scatter-add and division by
  the clamped in-degree to the same arrays, so they are the same function of the feature array and the edge list.

  The reference computes each layer's row as matrix products of whole arrays, a bias broadcast over the rows, and sums
  of whole arrays. Read at a node `r` and a feature `q`, a product is the sum over the contracted coordinate, a broadcast
  bias is the bias's entry `q`, and a sum of arrays is the sum of the entries: the first layer's row is
  `Σ_k a_k·Wn_kq + Σ_k x_k·Wr_kq + b_q`. In the second layer the reference adds the linear image `Q` of the input features
  and then its bias `lb` to the convolution `P + b`, as `((P + b) + Q) + lb`; the specification groups the linear image
  with its bias, `(P + b) + (Q + lb)`. Addition of extended reals is associative, so the two agree.

  The reference normalises a row `c` through columns: the row sums `0 + Σ_j c_j` as a column, divided by 256, broadcast
  back over the row and subtracted; the squared deviations summed and divided by 256 the same way, ε added, the inverse
  square root taken, broadcast back; then the gain and the shift, each repeated over the rows, and the clamp at 0. Read
  at `(r, q)` every broadcast reads its column or its row at the node's or the feature's coordinate, and `0 + s = s`: the
  result is the row normalisation of row `r`, entry `q`.
-/
import proofs.«101314_j47064251630165_1_alg».proof.Proof.Gen.ReferenceIdeal.Read
import proofs.«101314_j47064251630165_1_alg».proof.Proof.Net
import Idealize.ShloMosaic.Lib.ValueIdx
import Idealize.ShloMosaic.PureOps.Ideal.Laws

noncomputable section

open scoped BigOperators

namespace Cert.Bridge

open Idealize.ShloMosaic Idealize.ShloMosaic.ValueIdx Cert.ReferenceIdeal

/-! ## The two programs' dimension records are the same records

Both programs name the gather, the two scatters and their shapes in their own namespaces; the records have the same
fields, and their well-formedness fields are propositions. -/

theorem gather128_eq :
    Cert.ReferenceIdeal.gather_S50000x128_S800000x1_S800000x128_1_0_n_n_0_1_1128 =
      Cert.KernelIdeal.gather_S50000x128_S800000x1_S800000x128_1_0_n_n_0_1_1128 := rfl

theorem scatter128_eq :
    Cert.ReferenceIdeal.scatter_S50000x128_S800000x1_S800000x128_1_0_0_1 =
      Cert.KernelIdeal.scatter_S50000x128_S800000x1_S800000x128_1_0_0_1 := rfl

theorem scatterDeg_eq :
    Cert.ReferenceIdeal.scatter_S50000_S800000x1_S800000_n_0_0_1 =
      Cert.KernelIdeal.scatter_S50000_S800000x1_S800000_n_0_0_1 := rfl

theorem gather256_eq :
    Cert.ReferenceIdeal.gather_S50000x256_S800000x1_S800000x256_1_0_n_n_0_1_1256 =
      Cert.KernelIdeal.gather_S50000x256_S800000x1_S800000x256_1_0_n_n_0_1_1256 := rfl

theorem scatter256_eq :
    Cert.ReferenceIdeal.scatter_S50000x256_S800000x1_S800000x256_1_0_0_1 =
      Cert.KernelIdeal.scatter_S50000x256_S800000x1_S800000x256_1_0_0_1 := rfl

/-! ## The neighbourhood means, as functions -/

/-- The reference's first neighbourhood mean is the one function of the features and the edge list. -/
theorem ref_agg128 (x0 : (⟨S50000x128, .f32⟩ : BufTy).Contents (Elt Ideal))
    (x1 : (⟨S2x800000, .i32⟩ : BufTy).Contents (Elt Ideal)) :
    Read.val_main_v22 (F := Ideal) x0 x1 = agg128 (F := Ideal) x0 x1 := by
  unfold Read.val_main_v22 Read.val_main_v21 Read.val_main_v20 Read.val_main_v19 Read.val_main_v18 Read.val_main_cst_3
    Read.val_main_v17 Read.val_main_v16 Read.val_main_v15 Read.val_main_cst_2 Read.val_main_v14 Read.val_main_cst_1
    Read.val_main_v13 Read.val_main_v12 Read.val_main_v11 Read.val_main_cst Read.val_main_v10 Read.val_main_v9
    Read.val_main_v8 Read.val_main_v7 Read.val_main_v6 Read.val_main_c_0 Read.val_main_v5 Read.val_main_v4 Read.val_main_c
    Read.val_main_v3 Read.val_main_v2 Read.val_main_v1 Read.val_main_v0
    agg128 degClamped dstCol srcCol
  rw [gather128_eq, scatter128_eq, scatterDeg_eq]

/-! ## Where the layout operations and the products read

A row's mean is a column, broadcast back over the row; a gain or a bias is first made a one-row array and then repeated
over the rows; a row sum reads the row's entries; a product reads its left factor along the node's row and its right
factor down the feature's column. Each such operation reads its operand at an index that is a pair, or a single
coordinate, of the coordinates it was asked at. -/

theorem refpre_idx_v33 (r : Fin 50000) (q : Fin 256) : Read.idx_main_v33 (ix2 r q) = ix2 r (0 : Fin 1) :=
  funext fun a => Fin.ext (by match a with | ⟨0, _⟩ => rfl | ⟨1, _⟩ => rfl)
theorem refpre_idx_v40 (r : Fin 50000) (q : Fin 256) : Read.idx_main_v40 (ix2 r q) = ix2 r (0 : Fin 1) :=
  funext fun a => Fin.ext (by match a with | ⟨0, _⟩ => rfl | ⟨1, _⟩ => rfl)
theorem refpre_idx_v45 (r : Fin 50000) (q : Fin 256) : Read.idx_main_v45 (ix2 r q) = ix2 r (0 : Fin 1) :=
  funext fun a => Fin.ext (by match a with | ⟨0, _⟩ => rfl | ⟨1, _⟩ => rfl)
theorem refpre_idx_v92 (r : Fin 50000) (q : Fin 256) : Read.idx_main_v92 (ix2 r q) = ix2 r (0 : Fin 1) :=
  funext fun a => Fin.ext (by match a with | ⟨0, _⟩ => rfl | ⟨1, _⟩ => rfl)
theorem refpre_idx_v99 (r : Fin 50000) (q : Fin 256) : Read.idx_main_v99 (ix2 r q) = ix2 r (0 : Fin 1) :=
  funext fun a => Fin.ext (by match a with | ⟨0, _⟩ => rfl | ⟨1, _⟩ => rfl)
theorem refpre_idx_v104 (r : Fin 50000) (q : Fin 256) : Read.idx_main_v104 (ix2 r q) = ix2 r (0 : Fin 1) :=
  funext fun a => Fin.ext (by match a with | ⟨0, _⟩ => rfl | ⟨1, _⟩ => rfl)
theorem refpre_idx_v30 (r : Fin 50000) (z : Fin 1) : Read.idx_main_v30 (ix2 r z) = ix1 r :=
  funext fun a => Fin.ext (by match a with | ⟨0, _⟩ => rfl)
theorem refpre_idx_v37 (r : Fin 50000) (z : Fin 1) : Read.idx_main_v37 (ix2 r z) = ix1 r :=
  funext fun a => Fin.ext (by match a with | ⟨0, _⟩ => rfl)
theorem refpre_idx_v89 (r : Fin 50000) (z : Fin 1) : Read.idx_main_v89 (ix2 r z) = ix1 r :=
  funext fun a => Fin.ext (by match a with | ⟨0, _⟩ => rfl)
theorem refpre_idx_v96 (r : Fin 50000) (z : Fin 1) : Read.idx_main_v96 (ix2 r z) = ix1 r :=
  funext fun a => Fin.ext (by match a with | ⟨0, _⟩ => rfl)
theorem refpre_idx_v29 (r : Fin 50000) (k : Fin 256) : Read.idx_main_v29 (ix1 r) k = ix2 r k :=
  funext fun a => Fin.ext (by match a with | ⟨0, _⟩ => rfl | ⟨1, _⟩ => rfl)
theorem refpre_idx_v36 (r : Fin 50000) (k : Fin 256) : Read.idx_main_v36 (ix1 r) k = ix2 r k :=
  funext fun a => Fin.ext (by match a with | ⟨0, _⟩ => rfl | ⟨1, _⟩ => rfl)
theorem refpre_idx_v88 (r : Fin 50000) (k : Fin 256) : Read.idx_main_v88 (ix1 r) k = ix2 r k :=
  funext fun a => Fin.ext (by match a with | ⟨0, _⟩ => rfl | ⟨1, _⟩ => rfl)
theorem refpre_idx_v95 (r : Fin 50000) (k : Fin 256) : Read.idx_main_v95 (ix1 r) k = ix2 r k :=
  funext fun a => Fin.ext (by match a with | ⟨0, _⟩ => rfl | ⟨1, _⟩ => rfl)
theorem refpre_idx_v27 (r : Fin 50000) (q : Fin 256) : Read.idx_main_v27 (ix2 r q) = ix2 (0 : Fin 1) q :=
  funext fun a => Fin.ext (by match a with | ⟨0, _⟩ => rfl | ⟨1, _⟩ => rfl)
theorem refpre_idx_v48 (r : Fin 50000) (q : Fin 256) : Read.idx_main_v48 (ix2 r q) = ix2 (0 : Fin 1) q :=
  funext fun a => Fin.ext (by match a with | ⟨0, _⟩ => rfl | ⟨1, _⟩ => rfl)
theorem refpre_idx_v51 (r : Fin 50000) (q : Fin 256) : Read.idx_main_v51 (ix2 r q) = ix2 (0 : Fin 1) q :=
  funext fun a => Fin.ext (by match a with | ⟨0, _⟩ => rfl | ⟨1, _⟩ => rfl)
theorem refpre_idx_v81 (r : Fin 50000) (q : Fin 256) : Read.idx_main_v81 (ix2 r q) = ix2 (0 : Fin 1) q :=
  funext fun a => Fin.ext (by match a with | ⟨0, _⟩ => rfl | ⟨1, _⟩ => rfl)
theorem refpre_idx_v86 (r : Fin 50000) (q : Fin 256) : Read.idx_main_v86 (ix2 r q) = ix2 (0 : Fin 1) q :=
  funext fun a => Fin.ext (by match a with | ⟨0, _⟩ => rfl | ⟨1, _⟩ => rfl)
theorem refpre_idx_v107 (r : Fin 50000) (q : Fin 256) : Read.idx_main_v107 (ix2 r q) = ix2 (0 : Fin 1) q :=
  funext fun a => Fin.ext (by match a with | ⟨0, _⟩ => rfl | ⟨1, _⟩ => rfl)
theorem refpre_idx_v110 (r : Fin 50000) (q : Fin 256) : Read.idx_main_v110 (ix2 r q) = ix2 (0 : Fin 1) q :=
  funext fun a => Fin.ext (by match a with | ⟨0, _⟩ => rfl | ⟨1, _⟩ => rfl)
theorem refpre_idx_v26 (z : Fin 1) (q : Fin 256) : Read.idx_main_v26 (ix2 z q) = ix1 q :=
  funext fun a => Fin.ext (by match a with | ⟨0, _⟩ => rfl)
theorem refpre_idx_v47 (z : Fin 1) (q : Fin 256) : Read.idx_main_v47 (ix2 z q) = ix1 q :=
  funext fun a => Fin.ext (by match a with | ⟨0, _⟩ => rfl)
theorem refpre_idx_v50 (z : Fin 1) (q : Fin 256) : Read.idx_main_v50 (ix2 z q) = ix1 q :=
  funext fun a => Fin.ext (by match a with | ⟨0, _⟩ => rfl)
theorem refpre_idx_v80 (z : Fin 1) (q : Fin 256) : Read.idx_main_v80 (ix2 z q) = ix1 q :=
  funext fun a => Fin.ext (by match a with | ⟨0, _⟩ => rfl)
theorem refpre_idx_v85 (z : Fin 1) (q : Fin 256) : Read.idx_main_v85 (ix2 z q) = ix1 q :=
  funext fun a => Fin.ext (by match a with | ⟨0, _⟩ => rfl)
theorem refpre_idx_v106 (z : Fin 1) (q : Fin 256) : Read.idx_main_v106 (ix2 z q) = ix1 q :=
  funext fun a => Fin.ext (by match a with | ⟨0, _⟩ => rfl)
theorem refpre_idx_v109 (z : Fin 1) (q : Fin 256) : Read.idx_main_v109 (ix2 z q) = ix1 q :=
  funext fun a => Fin.ext (by match a with | ⟨0, _⟩ => rfl)
theorem refpre_lidx_v23 (r : Fin 50000) (q : Fin 256) (k : Fin 128) : Read.lidx_main_v23 (ix2 r q) k = ix2 r k :=
  funext fun a => Fin.ext (by match a with | ⟨0, _⟩ => rfl | ⟨1, _⟩ => rfl)
theorem refpre_ridx_v23 (r : Fin 50000) (q : Fin 256) (k : Fin 128) : Read.ridx_main_v23 (ix2 r q) k = ix2 k q :=
  funext fun a => Fin.ext (by match a with | ⟨0, _⟩ => rfl | ⟨1, _⟩ => rfl)
theorem refpre_lidx_v24 (r : Fin 50000) (q : Fin 256) (k : Fin 128) : Read.lidx_main_v24 (ix2 r q) k = ix2 r k :=
  funext fun a => Fin.ext (by match a with | ⟨0, _⟩ => rfl | ⟨1, _⟩ => rfl)
theorem refpre_ridx_v24 (r : Fin 50000) (q : Fin 256) (k : Fin 128) : Read.ridx_main_v24 (ix2 r q) k = ix2 k q :=
  funext fun a => Fin.ext (by match a with | ⟨0, _⟩ => rfl | ⟨1, _⟩ => rfl)
theorem refpre_lidx_v83 (r : Fin 50000) (q : Fin 256) (k : Fin 128) : Read.lidx_main_v83 (ix2 r q) k = ix2 r k :=
  funext fun a => Fin.ext (by match a with | ⟨0, _⟩ => rfl | ⟨1, _⟩ => rfl)
theorem refpre_ridx_v83 (r : Fin 50000) (q : Fin 256) (k : Fin 128) : Read.ridx_main_v83 (ix2 r q) k = ix2 k q :=
  funext fun a => Fin.ext (by match a with | ⟨0, _⟩ => rfl | ⟨1, _⟩ => rfl)
theorem refpre_lidx_v77 (r : Fin 50000) (q : Fin 256) (k : Fin 256) : Read.lidx_main_v77 (ix2 r q) k = ix2 r k :=
  funext fun a => Fin.ext (by match a with | ⟨0, _⟩ => rfl | ⟨1, _⟩ => rfl)
theorem refpre_ridx_v77 (r : Fin 50000) (q : Fin 256) (k : Fin 256) : Read.ridx_main_v77 (ix2 r q) k = ix2 k q :=
  funext fun a => Fin.ext (by match a with | ⟨0, _⟩ => rfl | ⟨1, _⟩ => rfl)
theorem refpre_lidx_v78 (r : Fin 50000) (q : Fin 256) (k : Fin 256) : Read.lidx_main_v78 (ix2 r q) k = ix2 r k :=
  funext fun a => Fin.ext (by match a with | ⟨0, _⟩ => rfl | ⟨1, _⟩ => rfl)
theorem refpre_ridx_v78 (r : Fin 50000) (q : Fin 256) (k : Fin 256) : Read.ridx_main_v78 (ix2 r q) k = ix2 k q :=
  funext fun a => Fin.ext (by match a with | ⟨0, _⟩ => rfl | ⟨1, _⟩ => rfl)

/-! ## The two normalisations, one entry at a time -/

/-- The reference's normalisation of the first layer's rows is the row normalisation. -/
theorem norm0_at (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 x8 x9 : (⟨S256, .f32⟩ : BufTy).Contents (Elt Ideal)) (r : Fin 50000) (q : Fin 256) :
    Read.val_main_v53 (F := Ideal) x0 x1 x2 x3 x4 x8 x9 (ix2 r q) =
      rowNorm (fun j => Read.val_main_v28 (F := Ideal) x0 x1 x2 x3 x4 (ix2 r j)) (vec256 x8) (vec256 x9) q := by
  simp (config := { implicitDefEqProofs := false }) only [Read.val_main_v53_apply, Read.val_main_call0_v0_apply, Read.val_main_call0_cst_apply, Read.val_main_v52_apply, Read.val_main_v51_apply, Read.val_main_v50_apply, Read.val_main_v49_apply, Read.val_main_v48_apply, Read.val_main_v47_apply, Read.val_main_v46_apply, Read.val_main_v45_apply, Read.val_main_v44_apply, Read.val_main_v43_apply, Read.val_main_v42_apply, Read.val_main_cst_8_apply, Read.val_main_v41_apply, Read.val_main_v40_apply, Read.val_main_v39_apply, Read.val_main_v38_apply, Read.val_main_cst_7_apply, Read.val_main_v37_apply, Read.val_main_v36_apply, Read.val_main_cst_6_apply, Read.val_main_v35_apply, Read.val_main_v34_apply, Read.val_main_v33_apply, Read.val_main_v32_apply, Read.val_main_v31_apply, Read.val_main_cst_5_apply, Read.val_main_v30_apply, Read.val_main_v29_apply, Read.val_main_cst_4_apply,
    Ideal.maximumf_def, Ideal.addf_def, Ideal.subf_def, Ideal.mulf_def, Ideal.hostDivf_def, Ideal.hostUnary_rsqrt_def, Ideal.ofBits_def, Ideal.ofBits_zero_f32, zero_add,
    refpre_idx_v33, refpre_idx_v40, refpre_idx_v45, refpre_idx_v30, refpre_idx_v37, refpre_idx_v29, refpre_idx_v36,
    refpre_idx_v48, refpre_idx_v51, refpre_idx_v47, refpre_idx_v50, rowNorm, rowMean, rowVar, vec256]

/-- The reference's normalisation of the second layer's rows is the row normalisation. -/
theorem norm1_at (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal)) (x5 x6 : (⟨S256x256, .f32⟩ : BufTy).Contents (Elt Ideal)) (x7 x8 x9 x10 x11 : (⟨S256, .f32⟩ : BufTy).Contents (Elt Ideal)) (x12 : (⟨S128x256, .f32⟩ : BufTy).Contents (Elt Ideal)) (x13 : (⟨S256, .f32⟩ : BufTy).Contents (Elt Ideal)) (r : Fin 50000) (q : Fin 256) :
    Read.val_main_v112 (F := Ideal) x0 x1 x2 x3 x4 x5 x6 x7 x8 x9 x10 x11 x12 x13 (ix2 r q) =
      rowNorm (fun j => Read.val_main_v87 (F := Ideal) x0 x1 x2 x3 x4 x5 x6 x7 x8 x9 x12 x13 (ix2 r j)) (vec256 x10) (vec256 x11) q := by
  simp (config := { implicitDefEqProofs := false }) only [Read.val_main_v112_apply, Read.val_main_call1_v0_apply, Read.val_main_call1_cst_apply, Read.val_main_v111_apply, Read.val_main_v110_apply, Read.val_main_v109_apply, Read.val_main_v108_apply, Read.val_main_v107_apply, Read.val_main_v106_apply, Read.val_main_v105_apply, Read.val_main_v104_apply, Read.val_main_v103_apply, Read.val_main_v102_apply, Read.val_main_v101_apply, Read.val_main_cst_19_apply, Read.val_main_v100_apply, Read.val_main_v99_apply, Read.val_main_v98_apply, Read.val_main_v97_apply, Read.val_main_cst_18_apply, Read.val_main_v96_apply, Read.val_main_v95_apply, Read.val_main_cst_17_apply, Read.val_main_v94_apply, Read.val_main_v93_apply, Read.val_main_v92_apply, Read.val_main_v91_apply, Read.val_main_v90_apply, Read.val_main_cst_16_apply, Read.val_main_v89_apply, Read.val_main_v88_apply, Read.val_main_cst_15_apply,
    Ideal.maximumf_def, Ideal.addf_def, Ideal.subf_def, Ideal.mulf_def, Ideal.hostDivf_def, Ideal.hostUnary_rsqrt_def, Ideal.ofBits_def, Ideal.ofBits_zero_f32, zero_add,
    refpre_idx_v92, refpre_idx_v99, refpre_idx_v104, refpre_idx_v89, refpre_idx_v96, refpre_idx_v88, refpre_idx_v95,
    refpre_idx_v107, refpre_idx_v110, refpre_idx_v106, refpre_idx_v109, rowNorm, rowMean, rowVar, vec256]

/-! ## The two rows before normalisation, one entry at a time -/

/-- The reference's first-layer row before normalisation is the two matrix products plus the bias. -/
theorem ref_pre0 (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal)) (r : Fin 50000) (q : Fin 256) :
    Read.val_main_v28 (F := Ideal) x0 x1 x2 x3 x4 (ix2 r q) =
      pre0 (fun k => Read.val_main_v22 (F := Ideal) x0 x1 (ix2 r k)) (fun k => x0 (ix2 r k)) (fun k q => x2 (ix2 k q))
        (fun k q => x3 (ix2 k q)) (vec256 x4) q := by
  simp (config := { implicitDefEqProofs := false }) only [Read.val_main_v28_apply, Read.val_main_v27_apply, Read.val_main_v26_apply, Read.val_main_v25_apply, Read.val_main_v24_apply, Read.val_main_v23_apply, Ideal.addf_def,
    refpre_idx_v27, refpre_idx_v26, refpre_lidx_v23, refpre_ridx_v23, refpre_lidx_v24, refpre_ridx_v24, pre0, vec256]

/-- The reference's second neighbourhood mean is the same function of the first layer's output and the edge list
    (the reference computes the clamped in-degree a second time: the same term again). -/
theorem ref_agg256 (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 x8 x9 : (⟨S256, .f32⟩ : BufTy).Contents (Elt Ideal)) :
    Read.val_main_v76 (F := Ideal) x0 x1 x2 x3 x4 x8 x9 = agg256 (F := Ideal) (Read.val_main_v53 (F := Ideal) x0 x1 x2 x3 x4 x8 x9) x1 := by
  unfold Read.val_main_v76 Read.val_main_v75 Read.val_main_v74 Read.val_main_v73 Read.val_main_v72 Read.val_main_cst_14
    Read.val_main_v71 Read.val_main_v70 Read.val_main_v69 Read.val_main_cst_13 Read.val_main_v68 Read.val_main_cst_12
    Read.val_main_v67 Read.val_main_v66 Read.val_main_v65 Read.val_main_cst_11 Read.val_main_v64 Read.val_main_v63
    Read.val_main_v62 Read.val_main_v61 Read.val_main_v60 Read.val_main_c_10 Read.val_main_v59 Read.val_main_v58 Read.val_main_c_9
    Read.val_main_v57 Read.val_main_v56 Read.val_main_v55 Read.val_main_v54
    agg256 degClamped dstCol srcCol
  rw [gather256_eq, scatter256_eq, scatterDeg_eq]

/-- The reference's second-layer row before normalisation: the convolution of the first layer's output, then the linear
    image of the input features, then its bias; regrouped by associativity. -/
theorem ref_pre1 (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal)) (x5 x6 : (⟨S256x256, .f32⟩ : BufTy).Contents (Elt Ideal)) (x7 x8 x9 : (⟨S256, .f32⟩ : BufTy).Contents (Elt Ideal)) (x12 : (⟨S128x256, .f32⟩ : BufTy).Contents (Elt Ideal)) (x13 : (⟨S256, .f32⟩ : BufTy).Contents (Elt Ideal)) (r : Fin 50000) (q : Fin 256) :
    Read.val_main_v87 (F := Ideal) x0 x1 x2 x3 x4 x5 x6 x7 x8 x9 x12 x13 (ix2 r q) =
      pre1 (fun k => Read.val_main_v76 (F := Ideal) x0 x1 x2 x3 x4 x8 x9 (ix2 r k)) (fun k => Read.val_main_v53 (F := Ideal) x0 x1 x2 x3 x4 x8 x9 (ix2 r k))
        (fun k => x0 (ix2 r k)) (fun k q => x5 (ix2 k q)) (fun k q => x6 (ix2 k q)) (fun k q => x12 (ix2 k q))
        (vec256 x7) (vec256 x13) q := by
  simp (config := { implicitDefEqProofs := false }) only [Read.val_main_v87_apply, Read.val_main_v86_apply, Read.val_main_v85_apply, Read.val_main_v84_apply, Read.val_main_v83_apply, Read.val_main_v82_apply, Read.val_main_v81_apply, Read.val_main_v80_apply, Read.val_main_v79_apply, Read.val_main_v78_apply, Read.val_main_v77_apply, Ideal.addf_def,
    refpre_idx_v86, refpre_idx_v85, refpre_idx_v81, refpre_idx_v80, refpre_lidx_v77, refpre_ridx_v77, refpre_lidx_v78, refpre_ridx_v78,
    refpre_lidx_v83, refpre_ridx_v83, pre1, vec256]
  exact add_assoc _ _ _

end Cert.Bridge

end
-- ==== Proof.RefValue.lean ====
/-
  The reference computes the network.

  Its first layer's output, read at node `r` and feature `q`, is the row normalisation of node `r`'s row before
  normalisation; that row is the first layer's row function of the neighbourhood mean and the features; and the
  neighbourhood mean is the one aggregation function of the features and the edge list. The second layer is the same
  one level up: the normalisation of the second layer's row, which is the row function of the aggregation of the first
  layer's output, of that output and of the features, once the last two terms of its sum are grouped together.
-/
import proofs.«101314_j47064251630165_1_alg».proof.Proof.Gen.ReferenceIdeal.Read
import proofs.«101314_j47064251630165_1_alg».proof.Proof.RefPre
import proofs.«101314_j47064251630165_1_alg».proof.Proof.Net
import Idealize.ShloMosaic.Lib.ValueIdx

noncomputable section

namespace Cert.Bridge

open Idealize.ShloMosaic Idealize.ShloMosaic.ValueIdx Cert.ReferenceIdeal

/-- The first layer's output, read at a node and a feature. -/
theorem hidden_at (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 x8 x9 : (⟨S256, .f32⟩ : BufTy).Contents (Elt Ideal)) (r : Fin 50000) (q : Fin 256) :
    hidden x0 x1 x2 x3 x4 x8 x9 (ix2 r q) =
      rowNorm (pre0 (fun k => agg128 (F := Ideal) x0 x1 (ix2 r k)) (fun k => x0 (ix2 r k)) (fun k q => x2 (ix2 k q))
        (fun k q => x3 (ix2 k q)) (vec256 x4)) (vec256 x8) (vec256 x9) q := rfl

/-- The reference's first layer is the first layer. -/
theorem ref_hidden (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 x8 x9 : (⟨S256, .f32⟩ : BufTy).Contents (Elt Ideal)) :
    Read.val_main_v53 (F := Ideal) x0 x1 x2 x3 x4 x8 x9 = hidden x0 x1 x2 x3 x4 x8 x9 := by
  funext i
  obtain ⟨r, q, rfl⟩ : ∃ (r : Fin 50000) (q : Fin 256), i = ix2 r q := ⟨i 0, i 1, eq_ix2 i⟩
  rw [norm0_at, hidden_at]
  simp (config := { implicitDefEqProofs := false }) only [ref_pre0, ref_agg128]

/-- The network's output, read at a node and a feature. -/
theorem net_at (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal)) (x5 x6 : (⟨S256x256, .f32⟩ : BufTy).Contents (Elt Ideal)) (x7 x8 x9 x10 x11 : (⟨S256, .f32⟩ : BufTy).Contents (Elt Ideal)) (x12 : (⟨S128x256, .f32⟩ : BufTy).Contents (Elt Ideal)) (x13 : (⟨S256, .f32⟩ : BufTy).Contents (Elt Ideal)) (r : Fin 50000) (q : Fin 256) :
    net x0 x1 x2 x3 x4 x5 x6 x7 x8 x9 x10 x11 x12 x13 (ix2 r q) =
      rowNorm (pre1 (fun k => agg256 (F := Ideal) (hidden x0 x1 x2 x3 x4 x8 x9) x1 (ix2 r k)) (fun k => hidden x0 x1 x2 x3 x4 x8 x9 (ix2 r k))
        (fun k => x0 (ix2 r k)) (fun k q => x5 (ix2 k q)) (fun k q => x6 (ix2 k q)) (fun k q => x12 (ix2 k q))
        (vec256 x7) (vec256 x13)) (vec256 x10) (vec256 x11) q := rfl

/-- The reference's output is the network. -/
theorem ref_is_net (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal)) (x5 x6 : (⟨S256x256, .f32⟩ : BufTy).Contents (Elt Ideal)) (x7 x8 x9 x10 x11 : (⟨S256, .f32⟩ : BufTy).Contents (Elt Ideal)) (x12 : (⟨S128x256, .f32⟩ : BufTy).Contents (Elt Ideal)) (x13 : (⟨S256, .f32⟩ : BufTy).Contents (Elt Ideal)) :
    Cert.ReferenceIdeal.Read.val_main_v112 (F := Ideal) x0 x1 x2 x3 x4 x5 x6 x7 x8 x9 x10 x11 x12 x13 = Cert.Bridge.net x0 x1 x2 x3 x4 x5 x6 x7 x8 x9 x10 x11 x12 x13 := by
  funext i
  obtain ⟨r, q, rfl⟩ : ∃ (r : Fin 50000) (q : Fin 256), i = ix2 r q := ⟨i 0, i 1, eq_ix2 i⟩
  rw [norm1_at, net_at]
  simp (config := { implicitDefEqProofs := false }) only [ref_pre1, ref_agg256, ref_hidden]

end Cert.Bridge

end
-- ==== Proof.lean ====
/- The proof of `Cert.Claim` (proofs.«101314_j47064251630165_1_alg».proof.Defs): a two-layer graph network on 50000 nodes and 800000
   edges, computed by a program of two tiled regions (a fused convolution, layer normalisation and clamp per layer, on
   25 blocks of 2000 nodes) around host-side neighbourhood averaging, against a plain whole-array reference.

   Over the extended reals both programs compute ONE function of the fourteen argument arrays (`Cert.Bridge.net`): the
   neighbourhood mean is the same composition of host operations in both, a product accumulated into zero is the plain
   sum of products on either side, a row sum is the same sum whether taken along the lanes of a block or by a host
   reduction, the constants 256, the epsilon and 0 are the same words, and narrowing an operand to a 16-bit format
   changes nothing. The one difference is the grouping of the second layer's sum — the reference adds the linear
   image of the features and then its bias to the convolution, the tiled program adds the two already summed — which
   is associativity of addition and holds at the infinities too; so the input's finiteness is never used.

   The tiled program's value is read off its run through the two regions: each region's 25 written blocks tile its
   output array, and each block is, entry by entry, the normalised row of the node the entry belongs to. The three
   frames are the programs' runs with the results dropped; the idealization rewrote no operation. -/
import proofs.«101314_j47064251630165_1_alg».proof.Defs
import proofs.«101314_j47064251630165_1_alg».proof.Proof.Gen.Kernel
import proofs.«101314_j47064251630165_1_alg».proof.Proof.Gen.Kernel.Skeleton
import proofs.«101314_j47064251630165_1_alg».proof.Proof.Gen.Kernel.Launch
import proofs.«101314_j47064251630165_1_alg».proof.Proof.Gen.Kernel.Points
import proofs.«101314_j47064251630165_1_alg».proof.Proof.Gen.Kernel.Frame
import proofs.«101314_j47064251630165_1_alg».proof.Proof.Gen.KernelIdeal
import proofs.«101314_j47064251630165_1_alg».proof.Proof.Gen.KernelIdeal.Skeleton
import proofs.«101314_j47064251630165_1_alg».proof.Proof.Gen.KernelIdeal.Launch
import proofs.«101314_j47064251630165_1_alg».proof.Proof.Gen.KernelIdeal.Points
import proofs.«101314_j47064251630165_1_alg».proof.Proof.Gen.KernelIdeal.Frame
import proofs.«101314_j47064251630165_1_alg».proof.Proof.Gen.ReferenceIdeal
import proofs.«101314_j47064251630165_1_alg».proof.Proof.Gen.ReferenceIdeal.Run
import proofs.«101314_j47064251630165_1_alg».proof.Proof.Gen.ReferenceIdeal.Read
import proofs.«101314_j47064251630165_1_alg».proof.Proof.Gen.Pre_finite_inputs
import proofs.«101314_j47064251630165_1_alg».proof.Proof.KernelRun
import proofs.«101314_j47064251630165_1_alg».proof.Proof.RefValue
import Idealize.ShloMosaic.Adequacy
import Idealize.ShloMosaic.Init

noncomputable section

namespace Cert.Proof

open Idealize.ShloMosaic Idealize.SL.Sem

/-- The two idealized programs, run from memories that agree on the fourteen arguments, both end with the network of
    those arguments in their result arrays: the kernel program by its run through the two regions, the reference by its
    run read back operation by operation. -/
theorem algebraic : Cert.algebraic_KernelIdeal_ReferenceIdeal := by
  intro m ρ m' ρ' _ hagree
  refine ⟨fun c => Cert.Bridge.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), Cert.Bridge.kernel_run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8, h9, h10, h11, h12, h13⟩ := hagree c
  rw [Cert.ReferenceIdeal.Read.val_main_v112_eq, Cert.Bridge.ref_is_net, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
